-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S16x128 : Shape := ⟨2, ![16, 128]⟩
abbrev S1x128 : Shape := ⟨2, ![1, 128]⟩
abbrev S600000 : Shape := ⟨1, ![600000]⟩
abbrev S50000 : Shape := ⟨1, ![50000]⟩
abbrev S650000 : Shape := ⟨1, ![650000]⟩
abbrev S2x50000 : Shape := ⟨2, ![2, 50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg7 : FVec F S16x128 .f32) (main_arg8 : FVec F S1x128 .f32) (main_v33 : IVec S_ 1) : IVec S_ 1 :=
  let main_v34 : FVec F S16x128 .f32 := Host.absf main_arg7
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S16x128 .f32) (main_arg8 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S16x128 .f32) (main_arg8 : FVec F S1x128 .f32) (main_arg9 : IVec S600000 32) (main_arg10 : IVec S50000 32) (main_arg11 : IVec S650000 32) (main_arg12 : IVec S650000 32) (main_arg13 : IVec S2x50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S128x128 : Shape := ⟨2, ![128, 128]⟩
abbrev S128 : Shape := ⟨1, ![128]⟩
abbrev S16x128 : Shape := ⟨2, ![16, 128]⟩
abbrev S1x128 : Shape := ⟨2, ![1, 128]⟩
abbrev S600000 : Shape := ⟨1, ![600000]⟩
abbrev S50000 : Shape := ⟨1, ![50000]⟩
abbrev S650000 : Shape := ⟨1, ![650000]⟩
abbrev S2x50000 : Shape := ⟨2, ![2, 50000]⟩
abbrev S128x384 : Shape := ⟨2, ![128, 384]⟩
abbrev S384 : Shape := ⟨1, ![384]⟩
abbrev S1x384 : Shape := ⟨2, ![1, 384]⟩
abbrev S50000x384 : Shape := ⟨2, ![50000, 384]⟩
abbrev S2000x128 : Shape := ⟨2, ![2000, 128]⟩
abbrev S2000x384 : Shape := ⟨2, ![2000, 384]⟩
abbrev S_ : Shape := ⟨0, ![]⟩
abbrev S650000x1 : Shape := ⟨2, ![650000, 1]⟩
abbrev S650000x128 : Shape := ⟨2, ![650000, 128]⟩
abbrev S650000x8x16 : Shape := ⟨3, ![650000, 8, 16]⟩
abbrev S600000x1 : Shape := ⟨2, ![600000, 1]⟩
abbrev S600000x128 : Shape := ⟨2, ![600000, 128]⟩
abbrev S50000x1 : Shape := ⟨2, ![50000, 1]⟩
abbrev S650000x8 : Shape := ⟨2, ![650000, 8]⟩
abbrev S520x8x16 : Shape := ⟨3, ![520, 8, 16]⟩
abbrev S520x8 : Shape := ⟨2, ![520, 8]⟩
abbrev S520x8x1 : Shape := ⟨3, ![520, 8, 1]⟩
abbrev S50000x8x16 : Shape := ⟨3, ![50000, 8, 16]⟩
abbrev S50000x8 : Shape := ⟨2, ![50000, 8]⟩
abbrev S50000x8x1 : Shape := ⟨3, ![50000, 8, 1]⟩

abbrev nBuf : Space → Nat
  | .hbm => 87
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16x128, .f32⟩
  | .hbm, ⟨8, _⟩ => ⟨S1x128, .f32⟩
  | .hbm, ⟨9, _⟩ => ⟨S600000, .i32⟩
  | .hbm, ⟨10, _⟩ => ⟨S50000, .i32⟩
  | .hbm, ⟨11, _⟩ => ⟨S650000, .i32⟩
  | .hbm, ⟨12, _⟩ => ⟨S650000, .i32⟩
  | .hbm, ⟨13, _⟩ => ⟨S2x50000, .i32⟩
  | .hbm, ⟨14, _⟩ => ⟨S128x384, .f32⟩
  | .hbm, ⟨15, _⟩ => ⟨S384, .f32⟩
  | .hbm, ⟨16, _⟩ => ⟨S1x384, .f32⟩
  | .hbm, ⟨17, _⟩ => ⟨S50000x384, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S_, .i32⟩
  | .hbm, ⟨22, _⟩ => ⟨S650000, .i32⟩
  | .hbm, ⟨23, _⟩ => ⟨S650000, .i1⟩
  | .hbm, ⟨24, _⟩ => ⟨S_, .i32⟩
  | .hbm, ⟨25, _⟩ => ⟨S650000, .i32⟩
  | .hbm, ⟨26, _⟩ => ⟨S650000, .i32⟩
  | .hbm, ⟨27, _⟩ => ⟨S650000, .i32⟩
  | .hbm, ⟨28, _⟩ => ⟨S650000x1, .i32⟩
  | .hbm, ⟨29, _⟩ => ⟨S650000x128, .f32⟩
  | .hbm, ⟨30, _⟩ => ⟨S650000x8x16, .f32⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000x128, .f32⟩
  | .hbm, ⟨40, _⟩ => ⟨S650000x8x16, .f32⟩
  | .hbm, ⟨41, _⟩ => ⟨S_, .i32⟩
  | .hbm, ⟨42, _⟩ => ⟨S650000, .i32⟩
  | .hbm, ⟨43, _⟩ => ⟨S650000, .i1⟩
  | .hbm, ⟨44, _⟩ => ⟨S_, .i32⟩
  | .hbm, ⟨45, _⟩ => ⟨S650000, .i32⟩
  | .hbm, ⟨46, _⟩ => ⟨S650000, .i32⟩
  | .hbm, ⟨47, _⟩ => ⟨S650000, .i32⟩
  | .hbm, ⟨48, _⟩ => ⟨S650000x1, .i32⟩
  | .hbm, ⟨49, _⟩ => ⟨S650000x128, .f32⟩
  | .hbm, ⟨50, _⟩ => ⟨S650000x8x16, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .i32⟩
  | .hbm, ⟨61, _⟩ => ⟨S50000, .i32⟩
  | .hbm, ⟨62, _⟩ => ⟨S50000, .i1⟩
  | .hbm, ⟨63, _⟩ => ⟨S_, .i32⟩
  | .hbm, ⟨64, _⟩ => ⟨S50000, .i32⟩
  | .hbm, ⟨65, _⟩ => ⟨S50000, .i32⟩
  | .hbm, ⟨66, _⟩ => ⟨S50000, .i32⟩
  | .hbm, ⟨67, _⟩ => ⟨S50000x1, .i32⟩
  | .hbm, ⟨68, _⟩ => ⟨S50000x128, .f32⟩
  | .hbm, ⟨69, _⟩ => ⟨S650000x128, .f32⟩
  | .hbm, ⟨70, _⟩ => ⟨S650000x8x16, .f32⟩
  | .hbm, ⟨71, _⟩ => ⟨S650000x8x16, .f32⟩
  | .hbm, ⟨72, _⟩ => ⟨S650000x8, .f32⟩
  | .hbm, ⟨73, _⟩ => ⟨S_, .f32⟩
  | .hbm, ⟨74, _⟩ => ⟨S50000x8x16, .f32⟩
  | .hbm, ⟨75, _⟩ => ⟨S650000x1, .i32⟩
  | .hbm, ⟨76, _⟩ => ⟨S50000x8x16, .f32⟩
  | .hbm, ⟨77, _⟩ => ⟨S_, .f32⟩
  | .hbm, ⟨78, _⟩ => ⟨S50000x8, .f32⟩
  | .hbm, ⟨79, _⟩ => ⟨S650000x1, .i32⟩
  | .hbm, ⟨80, _⟩ => ⟨S50000x8, .f32⟩
  | .hbm, ⟨81, _⟩ => ⟨S50000x8x1, .f32⟩
  | .hbm, ⟨82, _⟩ => ⟨S_, .f32⟩
  | .hbm, ⟨83, _⟩ => ⟨S50000x8x1, .f32⟩
  | .hbm, ⟨84, _⟩ => ⟨S50000x8x1, .f32⟩
  | .hbm, ⟨85, _⟩ => ⟨S50000x8x16, .f32⟩
  | .hbm, ⟨86, _⟩ => ⟨S50000x8x16, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S1x384, .f32⟩
  | .local _ .vmem, ⟨4, _⟩ => ⟨S2000x384, .f32⟩
  | .local _ .vmem, ⟨5, _⟩ => ⟨S2000x384, .f32⟩
  | .local _ .vmem, ⟨6, _⟩ => ⟨S520x8x16, .f32⟩
  | .local _ .vmem, ⟨7, _⟩ => ⟨S520x8x16, .f32⟩
  | .local _ .vmem, ⟨8, _⟩ => ⟨S520x8x16, .f32⟩
  | .local _ .vmem, ⟨9, _⟩ => ⟨S520x8x16, .f32⟩
  | .local _ .vmem, ⟨10, _⟩ => ⟨S520x8x16, .f32⟩
  | .local _ .vmem, ⟨11, _⟩ => ⟨S520x8x16, .f32⟩
  | .local _ .vmem, ⟨12, _⟩ => ⟨S520x8x16, .f32⟩
  | .local _ .vmem, ⟨13, _⟩ => ⟨S520x8x16, .f32⟩
  | .local _ .vmem, ⟨14, _⟩ => ⟨S520x8x16, .f32⟩
  | .local _ .vmem, ⟨15, _⟩ => ⟨S520x8x16, .f32⟩
  | .local _ .vmem, ⟨16, _⟩ => ⟨S520x8, .f32⟩
  | .local _ .vmem, ⟨17, _⟩ => ⟨S520x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47_0 : Ref sig .tc := ⟨.hbm, 71, rfl⟩
abbrev main_v47_1 : Ref sig .tc := ⟨.hbm, 72, rfl⟩
abbrev main_cst : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1250], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S520x8x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S520x8x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S520x8x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S520x8x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S520x8x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S520x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S650000 : S_.BroadcastsInDim S650000 (![] : Fin 0 → Fin S650000.rank)
  bcast_S650000_S650000x1_0 : S650000.BroadcastsInDim S650000x1 (![0] : Fin 1 → Fin S650000x1.rank)
  shapeCasts_S650000x128_S650000x8x16 : S650000x128.ShapeCasts S650000x8x16
  bcast_S_S600000 : S_.BroadcastsInDim S600000 (![] : Fin 0 → Fin S600000.rank)
  bcast_S600000_S600000x1_0 : S600000.BroadcastsInDim S600000x1 (![0] : Fin 1 → Fin S600000x1.rank)
  bcast_S_S50000 : S_.BroadcastsInDim S50000 (![] : Fin 0 → Fin S50000.rank)
  bcast_S50000_S50000x1_0 : S50000.BroadcastsInDim S50000x1 (![0] : Fin 1 → Fin S50000x1.rank)
  concatenates_S600000x128_S50000x128_S650000x128_d0 : Shape.Concatenates [S600000x128, S50000x128] S650000x128 0
  inb_S520x8x16_S520x8x16_0_0_0 : ∀ a, (![0, 0, 0] : Fin 3 → Nat) a + S520x8x16.size a ≤ S520x8x16.size a
  h_S520x8x16 : 0 < S520x8x16.numel
  shapeCasts_S520x8x16_S520x8x16 : S520x8x16.ShapeCasts S520x8x16
  reduces_S520x8x16_S520x8 : S520x8x16.Reduces [2] S520x8
  inb_S520x8_S520x8_0_0 : ∀ a, (![0, 0] : Fin 2 → Nat) a + S520x8.size a ≤ S520x8.size a
  h_S520x8 : 0 < S520x8.numel
  shapeCasts_S520x8_S520x8x1 : S520x8.ShapeCasts S520x8x1
  broadcasts_S520x8x1_S520x8x16 : S520x8x1.Broadcasts S520x8x16
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S2000x128_S128x384_S2000x384_1_0_0_1_n_n_wf : DotDims.WF S2000x128 S128x384 S2000x384 [1] [0] [0] [1] [] []
  gather_S50000x128_S650000x1_S650000x128_1_0_n_n_0_1_1128_wf : GatherDims.WF S50000x128 S650000x1 S650000x128 [1] [0] [] [0] [] 1 ![1, 128]
  gather_S16x128_S600000x1_S600000x128_1_0_n_n_0_1_1128_wf : GatherDims.WF S16x128 S600000x1 S600000x128 [1] [0] [] [0] [] 1 ![1, 128]
  gather_S1x128_S50000x1_S50000x128_1_0_n_n_0_1_1128_wf : GatherDims.WF S1x128 S50000x1 S50000x128 [1] [0] [] [0] [] 1 ![1, 128]
  scatter_S50000x8x16_S650000x1_S650000x8x16_12_0_0_1_wf : ScatterDims.WF S50000x8x16 S650000x1 S650000x8x16 [1, 2] [0] [0] 1
  scatter_S50000x8_S650000x1_S650000x8_1_0_0_1_wf : ScatterDims.WF S50000x8 S650000x1 S650000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x384.size a ≤ S50000x384.size a
  hwx0_3 : ∀ i : grid0.Coords, EltTy.bits .f32 = 32 ∨ (Rect.block (s := S50000x384) S2000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S520x8x16.size a ≤ S650000x8x16.size a
  hwx1_0 : ∀ i : grid1.Coords, EltTy.bits .f32 = 32 ∨ (Rect.block (s := S650000x8x16) S520x8x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S520x8x16.size a ≤ S650000x8x16.size a
  hwx1_1 : ∀ i : grid1.Coords, EltTy.bits .f32 = 32 ∨ (Rect.block (s := S650000x8x16) S520x8x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S520x8x16.size a ≤ S650000x8x16.size a
  hwx1_2 : ∀ i : grid1.Coords, EltTy.bits .f32 = 32 ∨ (Rect.block (s := S650000x8x16) S520x8x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S520x8x16.size a ≤ S650000x8x16.size a
  hwx1_3 : ∀ i : grid1.Coords, EltTy.bits .f32 = 32 ∨ (Rect.block (s := S650000x8x16) S520x8x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S520x8x16.size a ≤ S650000x8x16.size a
  hwx1_4 : ∀ i : grid1.Coords, EltTy.bits .f32 = 32 ∨ (Rect.block (s := S650000x8x16) S520x8x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S520x8.size a ≤ S650000x8.size a
  hwx1_5 : ∀ i : grid1.Coords, EltTy.bits .f32 = 32 ∨ (Rect.block (s := S650000x8) S520x8.size (cc1_transform_5 i) (hinb1_5 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def gather_S16x128_S600000x1_S600000x128_1_0_n_n_0_1_1128 : GatherDims S16x128 S600000x1 S600000x128 where
  offsetDims := [1]
  collapsedSliceDims := [0]
  operandBatchingDims := []
  startIndicesBatchingDims := []
  startIndexMap := [0]
  indexVectorDim := 1
  sliceSizes := ![1, 128]
  wf := gather_S16x128_S600000x1_S600000x128_1_0_n_n_0_1_1128_wf
def gather_S1x128_S50000x1_S50000x128_1_0_n_n_0_1_1128 : GatherDims S1x128 S50000x1 S50000x128 where
  offsetDims := [1]
  collapsedSliceDims := [0]
  operandBatchingDims := []
  startIndicesBatchingDims := []
  startIndexMap := [0]
  indexVectorDim := 1
  sliceSizes := ![1, 128]
  wf := gather_S1x128_S50000x1_S50000x128_1_0_n_n_0_1_1128_wf
def scatter_S50000x8x16_S650000x1_S650000x8x16_12_0_0_1 : ScatterDims S50000x8x16 S650000x1 S650000x8x16 where
  updateWindowDims := [1, 2]
  insertedWindowDims := [0]
  scatterDimsToOperandDims := [0]
  indexVectorDim := 1
  wf := scatter_S50000x8x16_S650000x1_S650000x8x16_12_0_0_1_wf
def scatter_S50000x8_S650000x1_S650000x8_1_0_0_1 : ScatterDims S50000x8 S650000x1 S650000x8 where
  updateWindowDims := [1]
  insertedWindowDims := [0]
  scatterDimsToOperandDims := [0]
  indexVectorDim := 1
  wf := scatter_S50000x8_S650000x1_S650000x8_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S520x8x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S520x8x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S520x8x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S520x8x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v47_0) S520x8x16.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v47_1) S520x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S16x128 : Shape := ⟨2, ![16, 128]⟩
abbrev S1x128 : Shape := ⟨2, ![1, 128]⟩
abbrev S600000 : Shape := ⟨1, ![600000]⟩
abbrev S50000 : Shape := ⟨1, ![50000]⟩
abbrev S650000 : Shape := ⟨1, ![650000]⟩
abbrev S2x50000 : Shape := ⟨2, ![2, 50000]⟩
abbrev S50000x8x16 : Shape := ⟨3, ![50000, 8, 16]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S650000x128 : Shape := ⟨2, ![650000, 128]⟩
abbrev S650000x8x16 : Shape := ⟨3, ![650000, 8, 16]⟩
abbrev S650000x1 : Shape := ⟨2, ![650000, 1]⟩
abbrev S650000x8 : Shape := ⟨2, ![650000, 8]⟩
abbrev S650000x8x1 : Shape := ⟨3, ![650000, 8, 1]⟩
abbrev S50000x8 : Shape := ⟨2, ![50000, 8]⟩
abbrev S50000x8x1 : Shape := ⟨3, ![50000, 8, 1]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16x128, .f32⟩
  | .hbm, ⟨8, _⟩ => ⟨S1x128, .f32⟩
  | .hbm, ⟨9, _⟩ => ⟨S600000, .i32⟩
  | .hbm, ⟨10, _⟩ => ⟨S50000, .i32⟩
  | .hbm, ⟨11, _⟩ => ⟨S650000, .i32⟩
  | .hbm, ⟨12, _⟩ => ⟨S650000, .i32⟩
  | .hbm, ⟨13, _⟩ => ⟨S2x50000, .i32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S50000x8x16, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S50000x8x16, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S50000x8x16, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .i32⟩
  | .hbm, ⟨39, _⟩ => ⟨S50000, .i32⟩
  | .hbm, ⟨40, _⟩ => ⟨S50000, .i1⟩
  | .hbm, ⟨41, _⟩ => ⟨S_, .i32⟩
  | .hbm, ⟨42, _⟩ => ⟨S50000, .i32⟩
  | .hbm, ⟨43, _⟩ => ⟨S50000, .i32⟩
  | .hbm, ⟨44, _⟩ => ⟨S50000, .i32⟩
  | .hbm, ⟨45, _⟩ => ⟨S50000x1, .i32⟩
  | .hbm, ⟨46, _⟩ => ⟨S50000x128, .f32⟩
  | .hbm, ⟨47, _⟩ => ⟨S650000x128, .f32⟩
  | .hbm, ⟨48, _⟩ => ⟨S650000x8x16, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x8x16, .f32⟩
  | .hbm, ⟨58, _⟩ => ⟨S_, .i32⟩
  | .hbm, ⟨59, _⟩ => ⟨S650000, .i32⟩
  | .hbm, ⟨60, _⟩ => ⟨S650000, .i1⟩
  | .hbm, ⟨61, _⟩ => ⟨S_, .i32⟩
  | .hbm, ⟨62, _⟩ => ⟨S650000, .i32⟩
  | .hbm, ⟨63, _⟩ => ⟨S650000, .i32⟩
  | .hbm, ⟨64, _⟩ => ⟨S650000, .i32⟩
  | .hbm, ⟨65, _⟩ => ⟨S650000x1, .i32⟩
  | .hbm, ⟨66, _⟩ => ⟨S650000x8x16, .f32⟩
  | .hbm, ⟨67, _⟩ => ⟨S650000x8x16, .f32⟩
  | .hbm, ⟨68, _⟩ => ⟨S_, .f32⟩
  | .hbm, ⟨69, _⟩ => ⟨S650000x8x16, .f32⟩
  | .hbm, ⟨70, _⟩ => ⟨S650000x8x16, .f32⟩
  | .hbm, ⟨71, _⟩ => ⟨S650000x8x16, .f32⟩
  | .hbm, ⟨72, _⟩ => ⟨S_, .f32⟩
  | .hbm, ⟨73, _⟩ => ⟨S650000x8, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S650000x8, .f32⟩
  | .hbm, ⟨78, _⟩ => ⟨S650000x8, .f32⟩
  | .hbm, ⟨79, _⟩ => ⟨S_, .f32⟩
  | .hbm, ⟨80, _⟩ => ⟨S650000x8, .f32⟩
  | .hbm, ⟨81, _⟩ => ⟨S650000x8, .f32⟩
  | .hbm, ⟨82, _⟩ => ⟨S650000x8, .f32⟩
  | .hbm, ⟨83, _⟩ => ⟨S_, .i32⟩
  | .hbm, ⟨84, _⟩ => ⟨S650000, .i32⟩
  | .hbm, ⟨85, _⟩ => ⟨S650000, .i1⟩
  | .hbm, ⟨86, _⟩ => ⟨S_, .i32⟩
  | .hbm, ⟨87, _⟩ => ⟨S650000, .i32⟩
  | .hbm, ⟨88, _⟩ => ⟨S650000, .i32⟩
  | .hbm, ⟨89, _⟩ => ⟨S650000, .i32⟩
  | .hbm, ⟨90, _⟩ => ⟨S650000x1, .i32⟩
  | .hbm, ⟨91, _⟩ => ⟨S650000x8x16, .f32⟩
  | .hbm, ⟨92, _⟩ => ⟨S650000x8x1, .f32⟩
  | .hbm, ⟨93, _⟩ => ⟨S650000x8x16, .f32⟩
  | .hbm, ⟨94, _⟩ => ⟨S650000x8x16, .f32⟩
  | .hbm, ⟨95, _⟩ => ⟨S_, .f32⟩
  | .hbm, ⟨96, _⟩ => ⟨S50000x8x16, .f32⟩
  | .hbm, ⟨97, _⟩ => ⟨S650000x1, .i32⟩
  | .hbm, ⟨98, _⟩ => ⟨S50000x8x16, .f32⟩
  | .hbm, ⟨99, _⟩ => ⟨S_, .f32⟩
  | .hbm, ⟨100, _⟩ => ⟨S50000x8, .f32⟩
  | .hbm, ⟨101, _⟩ => ⟨S650000x1, .i32⟩
  | .hbm, ⟨102, _⟩ => ⟨S50000x8, .f32⟩
  | .hbm, ⟨103, _⟩ => ⟨S50000x8x1, .f32⟩
  | .hbm, ⟨104, _⟩ => ⟨S_, .f32⟩
  | .hbm, ⟨105, _⟩ => ⟨S50000x8x1, .f32⟩
  | .hbm, ⟨106, _⟩ => ⟨S50000x8x1, .f32⟩
  | .hbm, ⟨107, _⟩ => ⟨S50000x8x16, .f32⟩
  | .hbm, ⟨108, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_3 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_cst_8 : Ref sig .tc := ⟨.hbm, 74, rfl⟩
abbrev main_cst_9 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_c_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S_S600000 : S_.BroadcastsInDim S600000 (![] : Fin 0 → Fin S600000.rank)
  bcast_S600000_S600000x1_0 : S600000.BroadcastsInDim S600000x1 (![0] : Fin 1 → Fin S600000x1.rank)
  bcast_S_S50000 : S_.BroadcastsInDim S50000 (![] : Fin 0 → Fin S50000.rank)
  bcast_S50000_S50000x1_0 : S50000.BroadcastsInDim S50000x1 (![0] : Fin 1 → Fin S50000x1.rank)
  concatenates_S600000x128_S50000x128_S650000x128_d0 : Shape.Concatenates [S600000x128, S50000x128] S650000x128 0
  shapeCasts_S650000x128_S650000x8x16 : S650000x128.ShapeCasts S650000x8x16
  bcast_S_S650000 : S_.BroadcastsInDim S650000 (![] : Fin 0 → Fin S650000.rank)
  bcast_S650000_S650000x1_0 : S650000.BroadcastsInDim S650000x1 (![0] : Fin 1 → Fin S650000x1.rank)
  bcast_S_S650000x8x16 : S_.BroadcastsInDim S650000x8x16 (![] : Fin 0 → Fin S650000x8x16.rank)
  reducesTo_S650000x8x16_S650000x8_d2 : S650000x8x16.ReducesTo [2] S650000x8
  h_S_ : 0 < S_.numel
  bcast_S_S650000x8 : S_.BroadcastsInDim S650000x8 (![] : Fin 0 → Fin S650000x8.rank)
  bcast_S650000x8_S650000x8x1_0_1 : S650000x8.BroadcastsInDim S650000x8x1 (![0, 1] : Fin 2 → Fin S650000x8x1.rank)
  bcast_S650000x8x1_S650000x8x16_0_1_2 : S650000x8x1.BroadcastsInDim S650000x8x16 (![0, 1, 2] : Fin 3 → Fin S650000x8x16.rank)
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  gather_S16x128_S600000x1_S600000x128_1_0_n_n_0_1_1128_wf : GatherDims.WF S16x128 S600000x1 S600000x128 [1] [0] [] [0] [] 1 ![1, 128]
  gather_S1x128_S50000x1_S50000x128_1_0_n_n_0_1_1128_wf : GatherDims.WF S1x128 S50000x1 S50000x128 [1] [0] [] [0] [] 1 ![1, 128]
  gather_S50000x8x16_S650000x1_S650000x8x16_12_0_n_n_0_1_1816_wf : GatherDims.WF S50000x8x16 S650000x1 S650000x8x16 [1, 2] [0] [] [0] [] 1 ![1, 8, 16]
  scatter_S50000x8x16_S650000x1_S650000x8x16_12_0_0_1_wf : ScatterDims.WF S50000x8x16 S650000x1 S650000x8x16 [1, 2] [0] [0] 1
  scatter_S50000x8_S650000x1_S650000x8_1_0_0_1_wf : ScatterDims.WF S50000x8 S650000x1 S650000x8 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S16x128_S600000x1_S600000x128_1_0_n_n_0_1_1128 : GatherDims S16x128 S600000x1 S600000x128 where
  offsetDims := [1]
  collapsedSliceDims := [0]
  operandBatchingDims := []
  startIndicesBatchingDims := []
  startIndexMap := [0]
  indexVectorDim := 1
  sliceSizes := ![1, 128]
  wf := gather_S16x128_S600000x1_S600000x128_1_0_n_n_0_1_1128_wf
def gather_S1x128_S50000x1_S50000x128_1_0_n_n_0_1_1128 : GatherDims S1x128 S50000x1 S50000x128 where
  offsetDims := [1]
  collapsedSliceDims := [0]
  operandBatchingDims := []
  startIndicesBatchingDims := []
  startIndexMap := [0]
  indexVectorDim := 1
  sliceSizes := ![1, 128]
  wf := gather_S1x128_S50000x1_S50000x128_1_0_n_n_0_1_1128_wf
def gather_S50000x8x16_S650000x1_S650000x8x16_12_0_n_n_0_1_1816 : GatherDims S50000x8x16 S650000x1 S650000x8x16 where
  offsetDims := [1, 2]
  collapsedSliceDims := [0]
  operandBatchingDims := []
  startIndicesBatchingDims := []
  startIndexMap := [0]
  indexVectorDim := 1
  sliceSizes := ![1, 8, 16]
  wf := gather_S50000x8x16_S650000x1_S650000x8x16_12_0_n_n_0_1_1816_wf
def scatter_S50000x8x16_S650000x1_S650000x8x16_12_0_0_1 : ScatterDims S50000x8x16 S650000x1 S650000x8x16 where
  updateWindowDims := [1, 2]
  insertedWindowDims := [0]
  scatterDimsToOperandDims := [0]
  indexVectorDim := 1
  wf := scatter_S50000x8x16_S650000x1_S650000x8x16_12_0_0_1_wf
def scatter_S50000x8_S650000x1_S650000x8_1_0_0_1 : ScatterDims S50000x8 S650000x1 S650000x8 where
  updateWindowDims := [1]
  insertedWindowDims := [0]
  scatterDimsToOperandDims := [0]
  indexVectorDim := 1
  wf := scatter_S50000x8_S650000x1_S650000x8_1_0_0_1_wf

class Facts : Prop extends Facts₀ where

variable [Facts]
-- ==== Proof.KDefs.lean ====
/- The definitions the run of the word-level program is stated over, and their projections.

   @main is two pipelined kernel regions among three stretches of host operations. Per region, at a PARAMETER `V`
   (what the TensorCore's buffers hold when the region is entered): a window's block at a grid point, what the kernel
   body leaves in each output window's staging buffer as a function of the input blocks, and the pipeline's proof data.
   Then the buffers' contents at each of the six boundaries between segments, as a fold from the launch memory. -/
import proofs.«170937_j69363721830857_2_alg».proof.Proof.Gen.Kernel.Launch
import proofs.«170937_j69363721830857_2_alg».proof.Proof.Gen.Kernel.Skeleton
import Idealize.ShloMosaic.Lib.Pipeline.FrameBody
import Idealize.ShloMosaic.Lib.Pipeline.FrameSuffix

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)

variable {F : FTy → Type} [FloatOps F]

variable (m : (ℓ : Loc nD τ sig) → Buf (Elt F) ℓ) (ρ : Dev nD → PrngReg)

section Regions
-- what the TensorCore's buffers hold when a region is entered: every region's half is stated at this parameter
variable (V : (c : Dev nD) → (b : Ref sig .tc) → Buf (Elt F) ((c : Thread nD τ).loc b))

/-! # Region 0: the projection kernel, a [2000,128] row block times the [128,384] weights plus the [1,384] bias -/

/-- Window `w`'s block at grid point `t`: the rectangle of the window's array its index map selects there, read off
    the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each staging buffer: the one rectangle the body loads or stores through it. -/
abbrev r0_0 : Rect S2000x128 := Rect.unit (s := S2000x128) ![0, 0] S2000x128.size inb_S2000x128_S2000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S2000x384 := Rect.unit (s := S2000x384) ![0, 0] S2000x384.size inb_S2000x384_S2000x384_0_0

/-- The output window's staging buffer after the body, from the three input blocks: one store of the whole
    buffer, whose payload is the product-plus-bias of what was loaded whole from the three inputs. -/
def out0_3 (x0 : Vec F S2000x128 .f32) (x1 : Vec F S128x384 .f32) (x2 : Vec F S1x384 .f32) : Vec F S2000x384 .f32 :=
  View.canon [⟨r0_3, k0_pay1 (View.ld x0 r0_0) (View.ld x1 r0_1) (View.ld x2 r0_2)⟩]

/-- The proof data of pipeline 0 on core `c`: the arrays as the region finds them; after the body at point `t` each
    input's buffer still at its block and the output's at `out0_3` of the three input blocks; the invariant carries
    the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! # Region 1: the edge kernel, four [520,8,16] input blocks to a [520,8,16] message block and a [520,8] score block -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a [520,8,16] staging buffer and of the [520,8] one. -/
abbrev r1_0 : Rect S520x8x16 := Rect.unit (s := S520x8x16) ![0, 0, 0] S520x8x16.size inb_S520x8x16_S520x8x16_0_0_0
abbrev r1_1 : Rect S520x8 := Rect.unit (s := S520x8) ![0, 0] S520x8.size inb_S520x8_S520x8_0_0

/-- The message window's staging buffer after the body: one store of the whole buffer, the third input scaled by
    the score broadcast along the last axis. -/
def out1_4 (x0 x1 x2 x3 : Vec F S520x8x16 .f32) : Vec F S520x8x16 .f32 :=
  View.canon [⟨r1_0, k1_pay2 (View.ld x0 r1_0) (View.ld x1 r1_0) (View.ld x2 r1_0) (View.ld x3 r1_0)⟩]

/-- The score window's staging buffer after the body: one store of the whole buffer, the exponential of the clamped
    scaled sum over the last axis of the product of inputs 0, 1 and 3. -/
def out1_5 (x0 x1 x3 : Vec F S520x8x16 .f32) : Vec F S520x8 .f32 :=
  View.canon [⟨r1_1, k1_pay1 (View.ld x0 r1_0) (View.ld x1 r1_0) (View.ld x3 r1_0)⟩]

/-- The proof data of pipeline 1 on core `c`: the arrays as the region finds them; after the body each input's
    buffer still at its block, the two outputs' at `out1_4` / `out1_5` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem after1_5 (c : Dev nD) (t : Fin cfg1.N) :
    (dat1 V c).after 5 t = out1_5 (iblk1 V c 0 t) (iblk1 V c 1 t) (iblk1 V c 3 t) := by dsimp only [dat1]

end Regions

/-! # The buffers' contents at each boundary between segments: a fold from the launch memory

    `W0` at launch, `W1` after the first host stretch (region 0's entry), `W2` at region 0's exit, `W3` after the
    second stretch (region 1's entry), `W4` at region 1's exit, `W5` after the last stretch (the return). `VtJ` is `WJ`
    read at the TensorCore's own references, the form a region's proof data take. -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
/-- The same, at the TensorCore's references. -/
abbrev Vt1 : (c : Dev nD) → (b : Ref sig .tc) → Buf (Elt F) ((c : Thread nD τ).loc b) := fun c b => W1 m ρ c b
/-- At region 0's exit: its windows' arrays at what the pipeline leaves there (an input as entered, the output
    with every point's write-back folded in), every other buffer as entered. -/
def W2 (c : Dev nD) : Valuation τ sig (Elt F) :=
  Pipeline.withArrays spec0 c (W1 m ρ c) fun w => (dat0 (Vt1 m ρ) c).arrAt w cfg0.N
theorem W2_arr (c : Dev nD) (w : Fin cfg0.W) :
    W2 m ρ c (Proc.devRef .tc (Pipeline.arrRef spec0 w)) = (dat0 (Vt1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, at the TensorCore's references. -/
abbrev Vt2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (Vt1 m ρ) c).arrAt w cfg0.N = Vt2 m ρ c (Pipeline.arrRef spec0 w) :=
  (W2_arr m ρ c w).symm
theorem hrest0 (c : Dev nD) : ∀ b, b ∉ Finset.univ.image (Pipeline.arrRef spec0) → Vt2 m ρ c b = Vt1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
/-- The same, at the TensorCore's references. -/
abbrev Vt3 : (c : Dev nD) → (b : Ref sig .tc) → Buf (Elt F) ((c : Thread nD τ).loc b) := fun c b => W3 m ρ c b
/-- At region 1's exit: its windows' arrays at what the pipeline leaves there, every other buffer as entered. -/
def W4 (c : Dev nD) : Valuation τ sig (Elt F) :=
  Pipeline.withArrays spec1 c (W3 m ρ c) fun w => (dat1 (Vt3 m ρ) c).arrAt w cfg1.N
theorem W4_arr (c : Dev nD) (w : Fin cfg1.W) :
    W4 m ρ c (Proc.devRef .tc (Pipeline.arrRef spec1 w)) = (dat1 (Vt3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, at the TensorCore's references. -/
abbrev Vt4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (Vt3 m ρ) c).arrAt w cfg1.N = Vt4 m ρ c (Pipeline.arrRef spec1 w) :=
  (W4_arr m ρ c w).symm
theorem hrest1 (c : Dev nD) : ∀ b, b ∉ Finset.univ.image (Pipeline.arrRef spec1) → Vt4 m ρ c b = Vt3 m ρ c b :=
  fun b hb => W4_of_ne m ρ c b fun w e => hb (Finset.mem_image.mpr ⟨w, Finset.mem_univ _, e⟩)

/-- After the last host stretch: what @main returns with. -/
abbrev W5 : Dev nD → Valuation τ sig (Elt F) := fun c => StableHlo.after hostOps2 (W4 m ρ c)

end Cert.Kernel.Gen

end
-- ==== Proof.KRun.lean ====
/- The run of the word-level program, at any float model `F`.

   Per kernel region, at the buffers' contents `V` on entry: each input window's staging buffer holds the window's
   block at every grid point; the kernel body, run on whole staging buffers, leaves the inputs in place and each output
   buffer at the closed form `outK_W` of the input blocks; hence the pipeline's body obligation. Then the run: the
   three host stretches and the two regions as segments over the thread state "every unscoped buffer at the boundary's
   contents, the generator register at some state, nothing owed", chained from the launch memory to the return contents
   `W5`; every final state holds `W5` in every unscoped buffer (`run_all`), and in particular every argument array as
   launched (`frame`). -/
import proofs.«170937_j69363721830857_2_alg».proof.Proof.KDefs
import proofs.«170937_j69363721830857_2_alg».proof.Proof.Gen.Kernel.Points
import proofs.«170937_j69363721830857_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is found by a structural walk, one level per coordinate of a long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- what the TensorCore's buffers hold when a region is entered
variable (V : (c : Dev nD) → (b : Ref sig .tc) → Buf (Elt F) ((c : Thread nD τ).loc b))

/-! # Region 0 at the entry contents `V`

## An input window's staging buffer holds its block at every point

Whether or not the pipeline fetched the window at that point: unfetched means its block index has not moved since the
last fetch (the weights and the bias are fetched once, at the first point), and the body leaves every input in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store of the body covers the output buffer -/

theorem cover0_3 (p0 : Vec F S2000x384 .f32) (y : S2000x384.Idx) :
    ∃ pc ∈ ([⟨r0_3, p0⟩] : List (View.Piece (Elt F) S2000x384 .f32)), y ∈ pc.1.set :=
  View.cover_of_tiled [⟨r0_3, p0⟩] S2000x384.size (by rfl) y

/-! ## The body's triple -/

set_option maxHeartbeats 1000000 in
/-- The projection body on whole staging memrefs — the three inputs' holding `x0 x1 x2`, the output's holding
    anything — runs to the continuation with the inputs as they were and the output at `out0_3 x0 x1 x2`: three whole
    loads, a load of the output whose value is dropped, one whole store. -/
theorem sound_kernel0 (c : Dev nD) (E : Set ℕ) (i : grid0.Coords)
    (arg1 : Memref sig .tc .vmem S2000x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S2000x384 .f32) (harg4 : arg4.IsWhole)
    (x0 : Vec F S2000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data's input buffers -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a grid point -/

/-- What the pipeline hands the body at point `t`: the invariant, the core's dues, and each window's current staging
    buffer whole — an input's at its block, the output's at whatever the last use of that buffer left. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body must hand back: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 at the entry contents `V`

## An input window's staging buffer holds its block at every point (every input is fetched at every point) -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Each output's one store covers its buffer -/

theorem cover1_4 (p0 : Vec F S520x8x16 .f32) (y : S520x8x16.Idx) :
    ∃ pc ∈ ([⟨r1_0, p0⟩] : List (View.Piece (Elt F) S520x8x16 .f32)), y ∈ pc.1.set :=
  View.cover_of_tiled [⟨r1_0, p0⟩] S520x8x16.size (by rfl) y

theorem cover1_5 (p0 : Vec F S520x8 .f32) (y : S520x8.Idx) :
    ∃ pc ∈ ([⟨r1_1, p0⟩] : List (View.Piece (Elt F) S520x8 .f32)), y ∈ pc.1.set :=
  View.cover_of_tiled [⟨r1_1, p0⟩] S520x8.size (by rfl) y

/-! ## The body's triple -/

set_option maxHeartbeats 1000000 in
/-- The edge body on whole staging memrefs — the four inputs' holding `x0 x1 x2 x3`, the two outputs' holding
    anything — runs to the continuation with the inputs as they were, the message buffer at `out1_4 x0 x1 x2 x3` and the
    score buffer at `out1_5 x0 x1 x3`: four whole loads, then per output a load whose value is dropped and one whole
    store (the score first). -/
theorem sound_kernel1 (c : Dev nD) (E : Set ℕ) (i : grid1.Coords)
    (arg1 : Memref sig .tc .vmem S520x8x16 .f32) (harg1 : arg1.IsWhole) (arg2 : Memref sig .tc .vmem S520x8x16 .f32) (harg2 : arg2.IsWhole)
    (arg3 : Memref sig .tc .vmem S520x8x16 .f32) (harg3 : arg3.IsWhole) (arg4 : Memref sig .tc .vmem S520x8x16 .f32) (harg4 : arg4.IsWhole)
    (arg5 : Memref sig .tc .vmem S520x8x16 .f32) (harg5 : arg5.IsWhole) (arg6 : Memref sig .tc .vmem S520x8 .f32) (harg6 : arg6.IsWhole)
    (x0 x1 x2 x3 : Vec F S520x8x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3) ∗ owns (c : Thread nD τ) arg6 fullShare (out1_5 x0 x1 x3)) -∗ K ⟨⟩))
      ⊢ wp frame (wpE (defs₀ (F := F)) Variants.none c none) E
          (cc1__edge_kernel i arg1 harg1 arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The proof data's input buffers -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a grid point -/

/-- What the pipeline hands the body at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body must hand back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: @main's five segments from the launch to the return

## The arguments end as launched

No host operation writes an argument and no region writes one back: region 0 reads `main_arg0` through an input
window, every other argument is no window's array. So the fold, read at an argument, walks back to the launch memory. -/

/-- A buffer no stretch writes and no region has as a window's array holds at the return what it held at launch. -/
theorem W5_of_untouched (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

/-- `main_arg0` is region 0's first input window's array: the pipeline leaves an input array as entered. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (Vt1 m ρ) c).arrAt_in 0 rfl _).trans (A_eq0 (Vt1 m ρ) c 0))
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  W5_of_untouched m ρ c main_arg1 (by decide) (by decide) (by decide) (by decide) (by decide)
theorem W5_main_arg2 (c : Dev nD) : W5 m ρ c (Proc.devRef .tc main_arg2) = m ((c : Thread nD τ).loc main_arg2) :=
  W5_of_untouched m ρ c main_arg2 (by decide) (by decide) (by decide) (by decide) (by decide)
theorem W5_main_arg3 (c : Dev nD) : W5 m ρ c (Proc.devRef .tc main_arg3) = m ((c : Thread nD τ).loc main_arg3) :=
  W5_of_untouched m ρ c main_arg3 (by decide) (by decide) (by decide) (by decide) (by decide)
theorem W5_main_arg4 (c : Dev nD) : W5 m ρ c (Proc.devRef .tc main_arg4) = m ((c : Thread nD τ).loc main_arg4) :=
  W5_of_untouched m ρ c main_arg4 (by decide) (by decide) (by decide) (by decide) (by decide)
theorem W5_main_arg5 (c : Dev nD) : W5 m ρ c (Proc.devRef .tc main_arg5) = m ((c : Thread nD τ).loc main_arg5) :=
  W5_of_untouched m ρ c main_arg5 (by decide) (by decide) (by decide) (by decide) (by decide)
theorem W5_main_arg6 (c : Dev nD) : W5 m ρ c (Proc.devRef .tc main_arg6) = m ((c : Thread nD τ).loc main_arg6) :=
  W5_of_untouched m ρ c main_arg6 (by decide) (by decide) (by decide) (by decide) (by decide)
theorem W5_main_arg7 (c : Dev nD) : W5 m ρ c (Proc.devRef .tc main_arg7) = m ((c : Thread nD τ).loc main_arg7) :=
  W5_of_untouched m ρ c main_arg7 (by decide) (by decide) (by decide) (by decide) (by decide)
theorem W5_main_arg8 (c : Dev nD) : W5 m ρ c (Proc.devRef .tc main_arg8) = m ((c : Thread nD τ).loc main_arg8) :=
  W5_of_untouched m ρ c main_arg8 (by decide) (by decide) (by decide) (by decide) (by decide)
theorem W5_main_arg9 (c : Dev nD) : W5 m ρ c (Proc.devRef .tc main_arg9) = m ((c : Thread nD τ).loc main_arg9) :=
  W5_of_untouched m ρ c main_arg9 (by decide) (by decide) (by decide) (by decide) (by decide)
theorem W5_main_arg10 (c : Dev nD) : W5 m ρ c (Proc.devRef .tc main_arg10) = m ((c : Thread nD τ).loc main_arg10) :=
  W5_of_untouched m ρ c main_arg10 (by decide) (by decide) (by decide) (by decide) (by decide)
theorem W5_main_arg11 (c : Dev nD) : W5 m ρ c (Proc.devRef .tc main_arg11) = m ((c : Thread nD τ).loc main_arg11) :=
  W5_of_untouched m ρ c main_arg11 (by decide) (by decide) (by decide) (by decide) (by decide)
theorem W5_main_arg12 (c : Dev nD) : W5 m ρ c (Proc.devRef .tc main_arg12) = m ((c : Thread nD τ).loc main_arg12) :=
  W5_of_untouched m ρ c main_arg12 (by decide) (by decide) (by decide) (by decide) (by decide)
theorem W5_main_arg13 (c : Dev nD) : W5 m ρ c (Proc.devRef .tc main_arg13) = m ((c : Thread nD τ).loc main_arg13) :=
  W5_of_untouched m ρ c main_arg13 (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment: from every unscoped buffer at `W` to every unscoped buffer at the stretch's
    effect on `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return contents `W5`, the generator register
    at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over the pinned configuration unifies with the printed one only when unification
-- may unfold plain definitions in a metavariable's type
set_option backward.isDefEq.respectTransparency.types false in
/-- Region 0 over the thread state: entered holding every unscoped buffer at `W1`, left holding them at `W2`. Its
    windows' arrays are split out of the unscoped buffers at entry and put back at the exit contents; the generator
    register goes into the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification
-- may unfold plain definitions in a metavariable's type
set_option backward.isDefEq.respectTransparency.types false in
/-- Region 1 over the thread state: entered holding every unscoped buffer at `W3`, left holding them at `W4`. Its
    windows' arrays are split out of the unscoped buffers at entry and put back at the exit contents; the generator
    register goes into the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev rsegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- @main is the run of the segments: it is the chain of its five items, and so is the segments' run. -/
theorem main_run (c : Dev nD) : main (F := F) c = Pipeline.Seg.run (rsegs m ρ) := by
  rw [main_chain c, Pipeline.Seg.run_eq_chain]
  rfl

/-- The two regions are different pipelines. -/
theorem rsegs_nodup : (Pipeline.Seg.pipes (rsegs m ρ)).Nodup := by
  simp only [rsegs, Pipeline.Seg.pipes_host, Pipeline.Seg.pipes_region, Pipeline.Seg.pipes_nil]; decide

/-- What the last stretch leaves is the last thread state beside the core owing nothing (the same three conjuncts, regrouped). -/
theorem last_link (c : Dev nD) :
    iprop(StableHlo.held (c : Thread nD τ) (Pipeline.ucRefs τ sig) (W5 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option maxHeartbeats 1000000 in
set_option backward.isDefEq.respectTransparency.types false in
/-- THE RUN: from any memory with zero counters, every weakly fair execution of @main on the TensorCores terminates,
    nothing faulting, and in every final state each core's every unscoped buffer holds the return contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (rsegs m ρ)
    (fun c Q => by rw [main_run m ρ c])
    (rsegs_nodup m ρ)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME, at any `F`: every argument array ends holding its launch contents — each read off the return contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c)⟩) (run_all m ρ)

end Cert.Kernel.Gen

end
-- ==== Proof.KIDefs.lean ====
/- The definitions the run of the idealised program is stated over, and their projections.

   @main is two pipelined kernel regions among three stretches of host operations. Per region, at a PARAMETER `V`
   (what the TensorCore's buffers hold when the region is entered): a window's block at a grid point, what the kernel
   body leaves in each output window's staging buffer as a function of the input blocks, and the pipeline's proof data.
   Then the buffers' contents at each of the six boundaries between segments, as a fold from the launch memory. -/
import proofs.«170937_j69363721830857_2_alg».proof.Proof.Gen.KernelIdeal.Launch
import proofs.«170937_j69363721830857_2_alg».proof.Proof.Gen.KernelIdeal.Skeleton
import Idealize.ShloMosaic.Lib.Pipeline.FrameBody
import Idealize.ShloMosaic.Lib.Pipeline.FrameSuffix

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window)

variable {F : FTy → Type} [FloatOps F]

variable (m : (ℓ : Loc nD τ sig) → Buf (Elt F) ℓ) (ρ : Dev nD → PrngReg)

section Regions
-- what the TensorCore's buffers hold when a region is entered: every region's half is stated at this parameter
variable (V : (c : Dev nD) → (b : Ref sig .tc) → Buf (Elt F) ((c : Thread nD τ).loc b))

/-! # Region 0: the projection kernel, a [2000,128] row block times the [128,384] weights plus the [1,384] bias -/

/-- Window `w`'s block at grid point `t`: the rectangle of the window's array its index map selects there, read off
    the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each staging buffer: the one rectangle the body loads or stores through it. -/
abbrev r0_0 : Rect S2000x128 := Rect.unit (s := S2000x128) ![0, 0] S2000x128.size inb_S2000x128_S2000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S2000x384 := Rect.unit (s := S2000x384) ![0, 0] S2000x384.size inb_S2000x384_S2000x384_0_0

/-- The output window's staging buffer after the body, from the three input blocks: one store of the whole
    buffer, whose payload is the product-plus-bias of what was loaded whole from the three inputs. -/
def out0_3 (x0 : Vec F S2000x128 .f32) (x1 : Vec F S128x384 .f32) (x2 : Vec F S1x384 .f32) : Vec F S2000x384 .f32 :=
  View.canon [⟨r0_3, k0_pay1 (View.ld x0 r0_0) (View.ld x1 r0_1) (View.ld x2 r0_2)⟩]

/-- The proof data of pipeline 0 on core `c`: the arrays as the region finds them; after the body at point `t` each
    input's buffer still at its block and the output's at `out0_3` of the three input blocks; the invariant carries
    the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! # Region 1: the edge kernel, four [520,8,16] input blocks to a [520,8,16] message block and a [520,8] score block -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a [520,8,16] staging buffer and of the [520,8] one. -/
abbrev r1_0 : Rect S520x8x16 := Rect.unit (s := S520x8x16) ![0, 0, 0] S520x8x16.size inb_S520x8x16_S520x8x16_0_0_0
abbrev r1_1 : Rect S520x8 := Rect.unit (s := S520x8) ![0, 0] S520x8.size inb_S520x8_S520x8_0_0

/-- The message window's staging buffer after the body: one store of the whole buffer, the third input scaled by
    the score broadcast along the last axis. -/
def out1_4 (x0 x1 x2 x3 : Vec F S520x8x16 .f32) : Vec F S520x8x16 .f32 :=
  View.canon [⟨r1_0, k1_pay2 (View.ld x0 r1_0) (View.ld x1 r1_0) (View.ld x2 r1_0) (View.ld x3 r1_0)⟩]

/-- The score window's staging buffer after the body: one store of the whole buffer, the exponential of the clamped
    scaled sum over the last axis of the product of inputs 0, 1 and 3. -/
def out1_5 (x0 x1 x3 : Vec F S520x8x16 .f32) : Vec F S520x8 .f32 :=
  View.canon [⟨r1_1, k1_pay1 (View.ld x0 r1_0) (View.ld x1 r1_0) (View.ld x3 r1_0)⟩]

/-- The proof data of pipeline 1 on core `c`: the arrays as the region finds them; after the body each input's
    buffer still at its block, the two outputs' at `out1_4` / `out1_5` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem after1_5 (c : Dev nD) (t : Fin cfg1.N) :
    (dat1 V c).after 5 t = out1_5 (iblk1 V c 0 t) (iblk1 V c 1 t) (iblk1 V c 3 t) := by dsimp only [dat1]

end Regions

/-! # The buffers' contents at each boundary between segments: a fold from the launch memory

    `W0` at launch, `W1` after the first host stretch (region 0's entry), `W2` at region 0's exit, `W3` after the
    second stretch (region 1's entry), `W4` at region 1's exit, `W5` after the last stretch (the return). `VtJ` is `WJ`
    read at the TensorCore's own references, the form a region's proof data take. -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
/-- The same, at the TensorCore's references. -/
abbrev Vt1 : (c : Dev nD) → (b : Ref sig .tc) → Buf (Elt F) ((c : Thread nD τ).loc b) := fun c b => W1 m ρ c b
/-- At region 0's exit: its windows' arrays at what the pipeline leaves there (an input as entered, the output
    with every point's write-back folded in), every other buffer as entered. -/
def W2 (c : Dev nD) : Valuation τ sig (Elt F) :=
  Pipeline.withArrays spec0 c (W1 m ρ c) fun w => (dat0 (Vt1 m ρ) c).arrAt w cfg0.N
theorem W2_arr (c : Dev nD) (w : Fin cfg0.W) :
    W2 m ρ c (Proc.devRef .tc (Pipeline.arrRef spec0 w)) = (dat0 (Vt1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, at the TensorCore's references. -/
abbrev Vt2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (Vt1 m ρ) c).arrAt w cfg0.N = Vt2 m ρ c (Pipeline.arrRef spec0 w) :=
  (W2_arr m ρ c w).symm
theorem hrest0 (c : Dev nD) : ∀ b, b ∉ Finset.univ.image (Pipeline.arrRef spec0) → Vt2 m ρ c b = Vt1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
/-- The same, at the TensorCore's references. -/
abbrev Vt3 : (c : Dev nD) → (b : Ref sig .tc) → Buf (Elt F) ((c : Thread nD τ).loc b) := fun c b => W3 m ρ c b
/-- At region 1's exit: its windows' arrays at what the pipeline leaves there, every other buffer as entered. -/
def W4 (c : Dev nD) : Valuation τ sig (Elt F) :=
  Pipeline.withArrays spec1 c (W3 m ρ c) fun w => (dat1 (Vt3 m ρ) c).arrAt w cfg1.N
theorem W4_arr (c : Dev nD) (w : Fin cfg1.W) :
    W4 m ρ c (Proc.devRef .tc (Pipeline.arrRef spec1 w)) = (dat1 (Vt3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, at the TensorCore's references. -/
abbrev Vt4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (Vt3 m ρ) c).arrAt w cfg1.N = Vt4 m ρ c (Pipeline.arrRef spec1 w) :=
  (W4_arr m ρ c w).symm
theorem hrest1 (c : Dev nD) : ∀ b, b ∉ Finset.univ.image (Pipeline.arrRef spec1) → Vt4 m ρ c b = Vt3 m ρ c b :=
  fun b hb => W4_of_ne m ρ c b fun w e => hb (Finset.mem_image.mpr ⟨w, Finset.mem_univ _, e⟩)

/-- After the last host stretch: what @main returns with. -/
abbrev W5 : Dev nD → Valuation τ sig (Elt F) := fun c => StableHlo.after hostOps2 (W4 m ρ c)

end Cert.KernelIdeal.Gen

end
-- ==== Proof.KIRun.lean ====
/- The run of the idealised program, at any float model `F`.

   Per kernel region, at the buffers' contents `V` on entry: each input window's staging buffer holds the window's
   block at every grid point; the kernel body, run on whole staging buffers, leaves the inputs in place and each output
   buffer at the closed form `outK_W` of the input blocks; hence the pipeline's body obligation. Then the run: the
   three host stretches and the two regions as segments over the thread state "every unscoped buffer at the boundary's
   contents, the generator register at some state, nothing owed", chained from the launch memory to the return contents
   `W5`; every final state holds `W5` in every unscoped buffer (`run_all`), and in particular every argument array as
   launched (`frame`). -/
import proofs.«170937_j69363721830857_2_alg».proof.Proof.KIDefs
import proofs.«170937_j69363721830857_2_alg».proof.Proof.Gen.KernelIdeal.Points
import proofs.«170937_j69363721830857_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is found by a structural walk, one level per coordinate of a long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- what the TensorCore's buffers hold when a region is entered
variable (V : (c : Dev nD) → (b : Ref sig .tc) → Buf (Elt F) ((c : Thread nD τ).loc b))

/-! # Region 0 at the entry contents `V`

## An input window's staging buffer holds its block at every point

Whether or not the pipeline fetched the window at that point: unfetched means its block index has not moved since the
last fetch (the weights and the bias are fetched once, at the first point), and the body leaves every input in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store of the body covers the output buffer -/

theorem cover0_3 (p0 : Vec F S2000x384 .f32) (y : S2000x384.Idx) :
    ∃ pc ∈ ([⟨r0_3, p0⟩] : List (View.Piece (Elt F) S2000x384 .f32)), y ∈ pc.1.set :=
  View.cover_of_tiled [⟨r0_3, p0⟩] S2000x384.size (by rfl) y

/-! ## The body's triple -/

set_option maxHeartbeats 1000000 in
/-- The projection body on whole staging memrefs — the three inputs' holding `x0 x1 x2`, the output's holding
    anything — runs to the continuation with the inputs as they were and the output at `out0_3 x0 x1 x2`: three whole
    loads, a load of the output whose value is dropped, one whole store. -/
theorem sound_kernel0 (c : Dev nD) (E : Set ℕ) (i : grid0.Coords)
    (arg1 : Memref sig .tc .vmem S2000x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S2000x384 .f32) (harg4 : arg4.IsWhole)
    (x0 : Vec F S2000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data's input buffers -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a grid point -/

/-- What the pipeline hands the body at point `t`: the invariant, the core's dues, and each window's current staging
    buffer whole — an input's at its block, the output's at whatever the last use of that buffer left. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body must hand back: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 at the entry contents `V`

## An input window's staging buffer holds its block at every point (every input is fetched at every point) -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Each output's one store covers its buffer -/

theorem cover1_4 (p0 : Vec F S520x8x16 .f32) (y : S520x8x16.Idx) :
    ∃ pc ∈ ([⟨r1_0, p0⟩] : List (View.Piece (Elt F) S520x8x16 .f32)), y ∈ pc.1.set :=
  View.cover_of_tiled [⟨r1_0, p0⟩] S520x8x16.size (by rfl) y

theorem cover1_5 (p0 : Vec F S520x8 .f32) (y : S520x8.Idx) :
    ∃ pc ∈ ([⟨r1_1, p0⟩] : List (View.Piece (Elt F) S520x8 .f32)), y ∈ pc.1.set :=
  View.cover_of_tiled [⟨r1_1, p0⟩] S520x8.size (by rfl) y

/-! ## The body's triple -/

set_option maxHeartbeats 1000000 in
/-- The edge body on whole staging memrefs — the four inputs' holding `x0 x1 x2 x3`, the two outputs' holding
    anything — runs to the continuation with the inputs as they were, the message buffer at `out1_4 x0 x1 x2 x3` and the
    score buffer at `out1_5 x0 x1 x3`: four whole loads, then per output a load whose value is dropped and one whole
    store (the score first). -/
theorem sound_kernel1 (c : Dev nD) (E : Set ℕ) (i : grid1.Coords)
    (arg1 : Memref sig .tc .vmem S520x8x16 .f32) (harg1 : arg1.IsWhole) (arg2 : Memref sig .tc .vmem S520x8x16 .f32) (harg2 : arg2.IsWhole)
    (arg3 : Memref sig .tc .vmem S520x8x16 .f32) (harg3 : arg3.IsWhole) (arg4 : Memref sig .tc .vmem S520x8x16 .f32) (harg4 : arg4.IsWhole)
    (arg5 : Memref sig .tc .vmem S520x8x16 .f32) (harg5 : arg5.IsWhole) (arg6 : Memref sig .tc .vmem S520x8 .f32) (harg6 : arg6.IsWhole)
    (x0 x1 x2 x3 : Vec F S520x8x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3) ∗ owns (c : Thread nD τ) arg6 fullShare (out1_5 x0 x1 x3)) -∗ K ⟨⟩))
      ⊢ wp frame (wpE (defs₀ (F := F)) Variants.none c none) E
          (cc1__edge_kernel i arg1 harg1 arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The proof data's input buffers -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a grid point -/

/-- What the pipeline hands the body at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body must hand back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: @main's five segments from the launch to the return

## The arguments end as launched

No host operation writes an argument and no region writes one back: region 0 reads `main_arg0` through an input
window, every other argument is no window's array. So the fold, read at an argument, walks back to the launch memory. -/

/-- A buffer no stretch writes and no region has as a window's array holds at the return what it held at launch. -/
theorem W5_of_untouched (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r ha1
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

/-- `main_arg0` is region 0's first input window's array: the pipeline leaves an input array as entered. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (Vt1 m ρ) c).arrAt_in 0 rfl _).trans (A_eq0 (Vt1 m ρ) c 0))
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  W5_of_untouched m ρ c main_arg1 (by decide) (by decide) (by decide) (by decide) (by decide)
theorem W5_main_arg2 (c : Dev nD) : W5 m ρ c (Proc.devRef .tc main_arg2) = m ((c : Thread nD τ).loc main_arg2) :=
  W5_of_untouched m ρ c main_arg2 (by decide) (by decide) (by decide) (by decide) (by decide)
theorem W5_main_arg3 (c : Dev nD) : W5 m ρ c (Proc.devRef .tc main_arg3) = m ((c : Thread nD τ).loc main_arg3) :=
  W5_of_untouched m ρ c main_arg3 (by decide) (by decide) (by decide) (by decide) (by decide)
theorem W5_main_arg4 (c : Dev nD) : W5 m ρ c (Proc.devRef .tc main_arg4) = m ((c : Thread nD τ).loc main_arg4) :=
  W5_of_untouched m ρ c main_arg4 (by decide) (by decide) (by decide) (by decide) (by decide)
theorem W5_main_arg5 (c : Dev nD) : W5 m ρ c (Proc.devRef .tc main_arg5) = m ((c : Thread nD τ).loc main_arg5) :=
  W5_of_untouched m ρ c main_arg5 (by decide) (by decide) (by decide) (by decide) (by decide)
theorem W5_main_arg6 (c : Dev nD) : W5 m ρ c (Proc.devRef .tc main_arg6) = m ((c : Thread nD τ).loc main_arg6) :=
  W5_of_untouched m ρ c main_arg6 (by decide) (by decide) (by decide) (by decide) (by decide)
theorem W5_main_arg7 (c : Dev nD) : W5 m ρ c (Proc.devRef .tc main_arg7) = m ((c : Thread nD τ).loc main_arg7) :=
  W5_of_untouched m ρ c main_arg7 (by decide) (by decide) (by decide) (by decide) (by decide)
theorem W5_main_arg8 (c : Dev nD) : W5 m ρ c (Proc.devRef .tc main_arg8) = m ((c : Thread nD τ).loc main_arg8) :=
  W5_of_untouched m ρ c main_arg8 (by decide) (by decide) (by decide) (by decide) (by decide)
theorem W5_main_arg9 (c : Dev nD) : W5 m ρ c (Proc.devRef .tc main_arg9) = m ((c : Thread nD τ).loc main_arg9) :=
  W5_of_untouched m ρ c main_arg9 (by decide) (by decide) (by decide) (by decide) (by decide)
theorem W5_main_arg10 (c : Dev nD) : W5 m ρ c (Proc.devRef .tc main_arg10) = m ((c : Thread nD τ).loc main_arg10) :=
  W5_of_untouched m ρ c main_arg10 (by decide) (by decide) (by decide) (by decide) (by decide)
theorem W5_main_arg11 (c : Dev nD) : W5 m ρ c (Proc.devRef .tc main_arg11) = m ((c : Thread nD τ).loc main_arg11) :=
  W5_of_untouched m ρ c main_arg11 (by decide) (by decide) (by decide) (by decide) (by decide)
theorem W5_main_arg12 (c : Dev nD) : W5 m ρ c (Proc.devRef .tc main_arg12) = m ((c : Thread nD τ).loc main_arg12) :=
  W5_of_untouched m ρ c main_arg12 (by decide) (by decide) (by decide) (by decide) (by decide)
theorem W5_main_arg13 (c : Dev nD) : W5 m ρ c (Proc.devRef .tc main_arg13) = m ((c : Thread nD τ).loc main_arg13) :=
  W5_of_untouched m ρ c main_arg13 (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment: from every unscoped buffer at `W` to every unscoped buffer at the stretch's
    effect on `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return contents `W5`, the generator register
    at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over the pinned configuration unifies with the printed one only when unification
-- may unfold plain definitions in a metavariable's type
set_option backward.isDefEq.respectTransparency.types false in
/-- Region 0 over the thread state: entered holding every unscoped buffer at `W1`, left holding them at `W2`. Its
    windows' arrays are split out of the unscoped buffers at entry and put back at the exit contents; the generator
    register goes into the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification
-- may unfold plain definitions in a metavariable's type
set_option backward.isDefEq.respectTransparency.types false in
/-- Region 1 over the thread state: entered holding every unscoped buffer at `W3`, left holding them at `W4`. Its
    windows' arrays are split out of the unscoped buffers at entry and put back at the exit contents; the generator
    register goes into the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order: a host segment per stretch from its boundary's contents, a region per kernel call. -/
abbrev rsegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- @main is the run of the segments: it is the chain of its five items, and so is the segments' run. -/
theorem main_run (c : Dev nD) : main (F := F) c = Pipeline.Seg.run (rsegs m ρ) := by
  rw [main_chain c, Pipeline.Seg.run_eq_chain]
  rfl

/-- The two regions are different pipelines. -/
theorem rsegs_nodup : (Pipeline.Seg.pipes (rsegs m ρ)).Nodup := by
  simp only [rsegs, Pipeline.Seg.pipes_host, Pipeline.Seg.pipes_region, Pipeline.Seg.pipes_nil]; decide

/-- What the last stretch leaves is the last thread state beside the core owing nothing (the same three conjuncts, regrouped). -/
theorem last_link (c : Dev nD) :
    iprop(StableHlo.held (c : Thread nD τ) (Pipeline.ucRefs τ sig) (W5 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option maxHeartbeats 1000000 in
set_option backward.isDefEq.respectTransparency.types false in
/-- THE RUN: from any memory with zero counters, every weakly fair execution of @main on the TensorCores terminates,
    nothing faulting, and in every final state each core's every unscoped buffer holds the return contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (rsegs m ρ)
    (fun c Q => by rw [main_run m ρ c])
    (rsegs_nodup m ρ)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME, at any `F`: every argument array ends holding its launch contents — each read off the return contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c)⟩) (run_all m ρ)

end Cert.KernelIdeal.Gen

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.KVRegion0.lean ====
/-
  What the projection region leaves in its output array, as a whole array.

  The region walks the 50000 node rows in 25 blocks of 2000; at block `t` the input window holds rows
  `2000·t … 2000·t + 1999` of `x`, the weight window the whole `[128, 384]` matrix, the bias window the whole
  `[1, 384]` row, and the output window rows `2000·t …` of the result.  The body stores the matrix product of the row
  block with the weights (a change of float format is the identity on the extended reals, and the product into a zero
  accumulator is the plain sum over the 128 contracted positions) plus the bias row broadcast over the rows.  The 25
  blocks tile the result, so after the region it holds at (n, j) the sum over k of `x(n, k) · W(k, j)`, plus `b(0, j)`.
-/
import proofs.«170937_j69363721830857_2_alg».proof.Proof.KIDefs
import proofs.«170937_j69363721830857_2_alg».proof.Proof.Gen.KernelIdeal.Points
import proofs.«170937_j69363721830857_2_alg».proof.Proof.LibMatmulIdx
import Idealize.ShloMosaic.Lib.Pipeline.Value
import Idealize.ShloMosaic.Lib.ValueLayout

noncomputable section

namespace Cert.KernelIdeal.ProjVal

open Cert.KernelIdeal Cert.KernelIdeal.Gen Idealize.ShloMosaic Idealize.ShloMosaic.TcCoe Idealize.ShloMosaic.ValueIdx
open Idealize.ShloMosaic.Pipeline (Dat)

/-- The stored block at (r, j): row r of the loaded row block against column j of the weights, plus the bias at j. -/
theorem pay_apply (v0 : Vec Ideal S2000x128 .f32) (v2 : Vec Ideal S128x384 .f32) (v6 : Vec Ideal S1x384 .f32)
    (r : Fin 2000) (j : Fin 384) :
    k0_pay1 (F := Ideal) v0 v2 v6 (ix2 r j) = (∑ k : Fin 128, v0 (ix2 r k) * v2 (ix2 k j)) + v6 (ix2 (0 : Fin 1) j) := by
  unfold k0_pay1
  simp only [shapeCast_self]
  rw [addf_apply, broadcastTo_1b_ab_apply]
  refine congrArg (· + _) ?_
  refine (LibMatmulIdx.matmul2_apply dot_S2000x128_S128x384_S2000x384_1_0_0_1_n_n rfl rfl
    (fun i q => by
      unfold DotDims.lhsIdx
      rw [dif_neg (show ¬(0 : Fin S2000x128.rank) ∈ dot_S2000x128_S128x384_S2000x384_1_0_0_1_n_n.lhsBatch by decide),
        dif_pos (show (0 : Fin S2000x128.rank) ∈ dot_S2000x128_S128x384_S2000x384_1_0_0_1_n_n.lhsNonContracting by decide)]
      rfl)
    (fun i q => dot_S2000x128_S128x384_S2000x384_1_0_0_1_n_n.lhsIdx_val_of_single rfl i q)
    (fun i q => dot_S2000x128_S128x384_S2000x384_1_0_0_1_n_n.rhsIdx_val_of_single rfl i q)
    (fun i q => by
      unfold DotDims.rhsIdx
      rw [dif_neg (show ¬(1 : Fin S128x384.rank) ∈ dot_S2000x128_S128x384_S2000x384_1_0_0_1_n_n.rhsBatch by decide),
        dif_pos (show (1 : Fin S128x384.rank) ∈ dot_S2000x128_S128x384_S2000x384_1_0_0_1_n_n.rhsNonContracting by decide)]
      rfl)
    none _ _ (ix2 r j)).trans ?_
  rfl

variable (V : (c : Dev nD) → (b : Ref sig .tc) → Buf (Elt Ideal) ((c : Thread nD τ).loc b))

theorem hz2 : (![0, 0] : Fin 2 → Nat) = fun _ => 0 := funext fun a => by fin_cases a <;> rfl

/-- The projected array: at (n, j) the row n of `X` against column j of `Wc`, plus the bias row at j. -/
def projArr (X : S50000x128.Idx → EReal) (Wc : S128x384.Idx → EReal) (B : S1x384.Idx → EReal) : S50000x384.Idx → EReal :=
  fun i => (∑ k : Fin 128, X (ix2 (n0 := 50000) (n1 := 128) (i 0) k) * Wc (ix2 (n0 := 128) (n1 := 384) k (i 1)))
    + B (ix2 (n0 := 1) (n1 := 384) (0 : Fin 1) (i 1))

/-- Every window's block index at point `t`: the row windows at block `t`, the weights and the bias at their only block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of block t is the array's row 2000·t + r. -/
def row (t : Fin cfg0.N) (r : Fin 2000) : Fin 50000 :=
  ⟨t.val * 2000 + r.val, by have ht : t.val < 25 := lt_of_lt_of_eq t.isLt N_0; have hr := r.isLt; omega⟩

/-- The row window's block at point `t`, at (r, k): `x` at row 2000·t + r. -/
theorem iblk0_0_apply (c : Dev nD) (t : Fin cfg0.N) (r : Fin 2000) (k : Fin 128) :
    iblk0 V c 0 t (ix2 r k) = V c main_arg0 (ix2 (row t r) k) := by
  show V c main_arg0 (((cfg0.win 0).blk t).view.emb (ix2 r k)) = _
  refine congrArg (V c main_arg0) (funext fun a => Fin.ext ?_)
  have e := idx_facts0 t
  match a with
  | ⟨0, _⟩ => show win0_0.index t (0 : Fin 2) * 2000 + 1 * r.val = t.val * 2000 + r.val; omega
  | ⟨1, _⟩ => show win0_0.index t (1 : Fin 2) * 128 + 1 * k.val = k.val; omega

/-- The weight window's block is the whole weight matrix at every point. -/
theorem iblk0_1_apply (c : Dev nD) (t : Fin cfg0.N) (k : Fin 128) (j : Fin 384) :
    iblk0 V c 1 t (ix2 k j) = V c main_v0 (ix2 k j) := by
  show V c main_v0 (((cfg0.win 1).blk t).view.emb (ix2 k j)) = _
  refine congrArg (V c main_v0) (funext fun a => Fin.ext ?_)
  have e := idx_facts0 t
  match a with
  | ⟨0, _⟩ => show win0_1.index t (0 : Fin 2) * 128 + 1 * k.val = k.val; omega
  | ⟨1, _⟩ => show win0_1.index t (1 : Fin 2) * 384 + 1 * j.val = j.val; omega

/-- The bias window's block is the whole bias row at every point. -/
theorem iblk0_2_apply (c : Dev nD) (t : Fin cfg0.N) (z : Fin 1) (j : Fin 384) :
    iblk0 V c 2 t (ix2 z j) = V c main_v2 (ix2 z j) := by
  show V c main_v2 (((cfg0.win 2).blk t).view.emb (ix2 z j)) = _
  refine congrArg (V c main_v2) (funext fun a => Fin.ext ?_)
  have e := idx_facts0 t
  match a with
  | ⟨0, _⟩ => show win0_2.index t (0 : Fin 2) * 1 + 1 * z.val = z.val; omega
  | ⟨1, _⟩ => show win0_2.index t (1 : Fin 2) * 384 + 1 * j.val = j.val; omega

/-- WHAT POINT `t` WRITES BACK is block `t` of the projected array of the three input arrays. -/
theorem flushed3_eq (c : Dev nD) (t : Fin cfg0.N) :
    (dat0 V c).flushed 3 t = ((cfg0.win 3).blk t).view.read (Elt Ideal) (projArr (V c main_arg0) (V c main_v0) (V c main_v2)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x384) hz2, View.ld_unit_zero (S := S1x384) hz2]
  funext y
  obtain ⟨r, j, rfl⟩ : ∃ (r : Fin 2000) (j : Fin 384), y = ix2 r j := ⟨y 0, y 1, eq_ix2 y⟩
  show k0_pay1 (F := Ideal) (iblk0 V c 0 t) (iblk0 V c 1 t) (iblk0 V c 2 t) (ix2 r j)
    = projArr (V c main_arg0) (V c main_v0) (V c main_v2) (((cfg0.win 3).blk t).view.emb (ix2 r j))
  refine (pay_apply _ _ _ r j).trans ?_
  have e := idx_facts0 t
  have hrow : (((cfg0.win 3).blk t).view.emb (ix2 r j)) = ix2 (row t r) j := by
    funext a; apply Fin.ext
    match a with
    | ⟨0, _⟩ => show win0_3.index t (0 : Fin 2) * 2000 + 1 * r.val = t.val * 2000 + r.val; omega
    | ⟨1, _⟩ => show win0_3.index t (1 : Fin 2) * 384 + 1 * j.val = j.val; omega
  rw [hrow]
  unfold projArr
  simp only [iblk0_0_apply, iblk0_1_apply, iblk0_2_apply]

/-- An index of the result is in point `t`'s block iff each coordinate is in the block's range on its axis. -/
theorem mem_blk3 (t : Fin cfg0.N) (i : S50000x384.Idx) :
    i ∈ ((cfg0.win 3).blk t).view.set ↔ ∀ a : Fin 2, win0_3.index t a * S2000x384.size a ≤ (i a).val ∧ (i a).val < win0_3.index t a * S2000x384.size a + S2000x384.size a := by
  show i ∈ ((View.whole main_v3).slice (win0_3.rect t)).set ↔ _
  rw [View.set_slice_whole, Rect.mem_set_unit]
  exact Iff.rfl

/-- The block that holds node row n is block n / 2000. -/
def blockOf (n : ℕ) (hn : n < 50000) : Fin cfg0.N := ⟨n / 2000, lt_of_lt_of_eq (by omega) N_0.symm⟩

/-- The 25 blocks cover the result. -/
theorem cover3 (i : S50000x384.Idx) : ∃ t : Fin cfg0.N, (cfg0.win 3).flush t = true ∧ i ∈ ((cfg0.win 3).blk t).view.set := by
  have hi0 : (i 0).val < 50000 := (i 0).isLt
  have hi1 : (i 1).val < 384 := (i 1).isLt
  refine ⟨blockOf (i 0).val hi0, flush0_3 _, ?_⟩
  rw [mem_blk3]
  have e := idx_facts0 (blockOf (i 0).val hi0)
  have ht : (blockOf (i 0).val hi0).val = (i 0).val / 2000 := rfl
  intro a
  match a with
  | ⟨0, _⟩ => show win0_3.index (blockOf (i 0).val hi0) (0 : Fin 2) * 2000 ≤ (i 0).val ∧ (i 0).val < win0_3.index (blockOf (i 0).val hi0) (0 : Fin 2) * 2000 + 2000; omega
  | ⟨1, _⟩ => show win0_3.index (blockOf (i 0).val hi0) (1 : Fin 2) * 384 ≤ (i 1).val ∧ (i 1).val < win0_3.index (blockOf (i 0).val hi0) (1 : Fin 2) * 384 + 384; omega

/-- THE RESULT ARRAY after the region: the projection of the three input arrays as the region found them. -/
theorem final3 (c : Dev nD) :
    (dat0 V c).arrAt 3 cfg0.N = projArr (V c main_arg0) (V c main_v0) (V c main_v2) :=
  (dat0 V c).arrAt_eq_of_cover 3 _ (fun t _ => flushed3_eq V c t) cover3

end Cert.KernelIdeal.ProjVal

end
-- ==== Proof.ProjBridge.lean ====
/-
  The three projections inside the joint one.

  The kernel's program multiplies `x` once by the three weight matrices laid side by side, `[Wq | Wk | Wv] : [128, 384]`,
  adds the three biases laid end to end, and cuts the result into three column bands.  Band c, at (n, j), is the sum
  over k of `x(n, k)` times the joined matrix at column `128·c + j` — which is piece c at column j — plus the joined
  bias at `128·c + j`, which is piece c at j: the separate projection `x · W_c + b_c` the reference computes.
-/
import proofs.«170937_j69363721830857_2_alg».proof.Proof.KVRegion0
import proofs.«170937_j69363721830857_2_alg».proof.Proof.Gen.ReferenceIdeal.Read
import Idealize.ShloMosaic.Lib.ValueLayout

noncomputable section

namespace Cert.KernelIdeal.HostVal

open Cert.KernelIdeal Cert.KernelIdeal.Facts₀ Cert.KernelIdeal.Facts Idealize.ShloMosaic Idealize.ShloMosaic.ValueIdx

/-- Three `[128, 128]` matrices side by side. -/
def Wcat (w0 w1 w2 : S128x128.Idx → EReal) : S128x384.Idx → EReal :=
  concatenate S128x384 1 [⟨S128x128, w0⟩, ⟨S128x128, w1⟩, ⟨S128x128, w2⟩] concatenates_S128x128_S128x128_S128x128_S128x384_d1

/-- Three `[128]` vectors end to end, as one row `[1, 384]`. -/
def Bcat (b0 b1 b2 : S128.Idx → EReal) : S1x384.Idx → EReal :=
  shapeCast S1x384 (concatenate S384 0 [⟨S128, b0⟩, ⟨S128, b1⟩, ⟨S128, b2⟩] concatenates_S128_S128_S128_S384_d0) shapeCasts_S384_S1x384

/-- The joined weight matrix at column `0 + j` is piece 0 at column j. -/
theorem wcat_0 (w0 w1 w2 : S128x128.Idx → EReal) (k : Fin 128) (j : Fin 128) (q : Fin 384) (hq : q.val = 0 + j.val) :
    Wcat w0 w1 w2 (ix2 k q) = w0 (ix2 k j) := by
  unfold Wcat
  refine concatenate_apply_piece (t := S128x384) (1 : Fin 2) [⟨S128x128, w0⟩, ⟨S128x128, w1⟩, ⟨S128x128, w2⟩] concatenates_S128x128_S128x128_S128x128_S128x384_d1 (ix2 k q) 0 (by show 0 < 3; decide) S128x128 w0 rfl rfl 0 rfl (ix2 k j)
    (fun b hb => ?_) ?_
  · match b with
    | ⟨0, _⟩ => rfl
    | ⟨1, _⟩ => exact absurd rfl hb
  · show 0 + j.val = q.val
    omega

/-- The joined bias at position `0 + j` is piece 0 at position j. -/
theorem bcat_0 (b0 b1 b2 : S128.Idx → EReal) (z : Fin 1) (j : Fin 128) (q : Fin 384) (hq : q.val = 0 + j.val) :
    Bcat b0 b1 b2 (ix2 z q) = b0 (ix1 j) := by
  unfold Bcat
  rw [shapeCast_a_1a_apply]
  refine concatenate_apply_piece (t := S384) (0 : Fin 1) [⟨S128, b0⟩, ⟨S128, b1⟩, ⟨S128, b2⟩] concatenates_S128_S128_S128_S384_d0 (ix1 q) 0 (by show 0 < 3; decide) S128 b0 rfl rfl 0 rfl (ix1 j)
    (fun b hb => ?_) ?_
  · match b with
    | ⟨0, _⟩ => exact absurd rfl hb
  · show 0 + j.val = q.val
    omega

/-- The joined weight matrix at column `128 + j` is piece 1 at column j. -/
theorem wcat_1 (w0 w1 w2 : S128x128.Idx → EReal) (k : Fin 128) (j : Fin 128) (q : Fin 384) (hq : q.val = 128 + j.val) :
    Wcat w0 w1 w2 (ix2 k q) = w1 (ix2 k j) := by
  unfold Wcat
  refine concatenate_apply_piece (t := S128x384) (1 : Fin 2) [⟨S128x128, w0⟩, ⟨S128x128, w1⟩, ⟨S128x128, w2⟩] concatenates_S128x128_S128x128_S128x128_S128x384_d1 (ix2 k q) 1 (by show 1 < 3; decide) S128x128 w1 rfl rfl 128 rfl (ix2 k j)
    (fun b hb => ?_) ?_
  · match b with
    | ⟨0, _⟩ => rfl
    | ⟨1, _⟩ => exact absurd rfl hb
  · show 128 + j.val = q.val
    omega

/-- The joined bias at position `128 + j` is piece 1 at position j. -/
theorem bcat_1 (b0 b1 b2 : S128.Idx → EReal) (z : Fin 1) (j : Fin 128) (q : Fin 384) (hq : q.val = 128 + j.val) :
    Bcat b0 b1 b2 (ix2 z q) = b1 (ix1 j) := by
  unfold Bcat
  rw [shapeCast_a_1a_apply]
  refine concatenate_apply_piece (t := S384) (0 : Fin 1) [⟨S128, b0⟩, ⟨S128, b1⟩, ⟨S128, b2⟩] concatenates_S128_S128_S128_S384_d0 (ix1 q) 1 (by show 1 < 3; decide) S128 b1 rfl rfl 128 rfl (ix1 j)
    (fun b hb => ?_) ?_
  · match b with
    | ⟨0, _⟩ => exact absurd rfl hb
  · show 128 + j.val = q.val
    omega

/-- The joined weight matrix at column `256 + j` is piece 2 at column j. -/
theorem wcat_2 (w0 w1 w2 : S128x128.Idx → EReal) (k : Fin 128) (j : Fin 128) (q : Fin 384) (hq : q.val = 256 + j.val) :
    Wcat w0 w1 w2 (ix2 k q) = w2 (ix2 k j) := by
  unfold Wcat
  refine concatenate_apply_piece (t := S128x384) (1 : Fin 2) [⟨S128x128, w0⟩, ⟨S128x128, w1⟩, ⟨S128x128, w2⟩] concatenates_S128x128_S128x128_S128x128_S128x384_d1 (ix2 k q) 2 (by show 2 < 3; decide) S128x128 w2 rfl rfl 256 rfl (ix2 k j)
    (fun b hb => ?_) ?_
  · match b with
    | ⟨0, _⟩ => rfl
    | ⟨1, _⟩ => exact absurd rfl hb
  · show 256 + j.val = q.val
    omega

/-- The joined bias at position `256 + j` is piece 2 at position j. -/
theorem bcat_2 (b0 b1 b2 : S128.Idx → EReal) (z : Fin 1) (j : Fin 128) (q : Fin 384) (hq : q.val = 256 + j.val) :
    Bcat b0 b1 b2 (ix2 z q) = b2 (ix1 j) := by
  unfold Bcat
  rw [shapeCast_a_1a_apply]
  refine concatenate_apply_piece (t := S384) (0 : Fin 1) [⟨S128, b0⟩, ⟨S128, b1⟩, ⟨S128, b2⟩] concatenates_S128_S128_S128_S384_d0 (ix1 q) 2 (by show 2 < 3; decide) S128 b2 rfl rfl 256 rfl (ix1 j)
    (fun b hb => ?_) ?_
  · match b with
    | ⟨0, _⟩ => exact absurd rfl hb
  · show 256 + j.val = q.val
    omega

/-- Columns 0 … 127 of the joint projection are the projection by weight piece 0 and bias piece 0: the
    reference's `x · W + b` for that piece, entry by entry. -/
theorem slice_proj_0 (x : S50000x128.Idx → EReal) (w0 w1 w2 : S128x128.Idx → EReal) (b0 b1 b2 : S128.Idx → EReal) :
    extractStridedSlice S50000x128 ![0, 0] (ProjVal.projArr x (Wcat w0 w1 w2) (Bcat b0 b1 b2)) slices_S50000x384_S50000x128_0_0
      = Cert.ReferenceIdeal.Read.val_main_v3 (F := Ideal) x w0 b0 := by
  funext i
  obtain ⟨n, j, rfl⟩ : ∃ (n : Fin 50000) (j : Fin 128), i = ix2 n j := ⟨i 0, i 1, eq_ix2 i⟩
  have hq : 0 + j.val < 384 := by have := j.isLt; omega
  rw [slice2_axis1_apply 0 _ _ n j ⟨0 + j.val, hq⟩ rfl,
    Cert.ReferenceIdeal.Read.val_main_v3_apply, Cert.ReferenceIdeal.Read.val_main_v0_apply, Cert.ReferenceIdeal.Read.val_main_v2_apply,
    Cert.ReferenceIdeal.Read.val_main_v1_apply]
  unfold ProjVal.projArr
  show (∑ k : Fin 128, x (ix2 n k) * Wcat w0 w1 w2 (ix2 k ⟨0 + j.val, hq⟩)) + Bcat b0 b1 b2 (ix2 (0 : Fin 1) ⟨0 + j.val, hq⟩)
    = (∑ k : Fin 128, x (Cert.ReferenceIdeal.Read.lidx_main_v0 (ix2 n j) k) * w0 (Cert.ReferenceIdeal.Read.ridx_main_v0 (ix2 n j) k))
      + b0 (Cert.ReferenceIdeal.Read.idx_main_v1 (Cert.ReferenceIdeal.Read.idx_main_v2 (ix2 n j)))
  refine congrArg₂ (· + ·) (Finset.sum_congr rfl fun k _ => ?_) ?_
  · rw [wcat_0 w0 w1 w2 k j _ rfl]
    refine congrArg₂ (· * ·) (congrArg x (funext fun a => Fin.ext ?_)) (congrArg w0 (funext fun a => Fin.ext ?_))
    · match a with
      | ⟨0, _⟩ => rfl
      | ⟨1, _⟩ => rfl
    · match a with
      | ⟨0, _⟩ => rfl
      | ⟨1, _⟩ => rfl
  · rw [bcat_0 b0 b1 b2 0 j _ rfl]
    refine congrArg b0 (funext fun a => Fin.ext ?_)
    match a with
    | ⟨0, _⟩ => rfl

/-- Columns 128 … 255 of the joint projection are the projection by weight piece 1 and bias piece 1: the
    reference's `x · W + b` for that piece, entry by entry. -/
theorem slice_proj_1 (x : S50000x128.Idx → EReal) (w0 w1 w2 : S128x128.Idx → EReal) (b0 b1 b2 : S128.Idx → EReal) :
    extractStridedSlice S50000x128 ![0, 128] (ProjVal.projArr x (Wcat w0 w1 w2) (Bcat b0 b1 b2)) slices_S50000x384_S50000x128_0_128
      = Cert.ReferenceIdeal.Read.val_main_v8 (F := Ideal) x w1 b1 := by
  funext i
  obtain ⟨n, j, rfl⟩ : ∃ (n : Fin 50000) (j : Fin 128), i = ix2 n j := ⟨i 0, i 1, eq_ix2 i⟩
  have hq : 128 + j.val < 384 := by have := j.isLt; omega
  rw [slice2_axis1_apply 128 _ _ n j ⟨128 + j.val, hq⟩ rfl,
    Cert.ReferenceIdeal.Read.val_main_v8_apply, Cert.ReferenceIdeal.Read.val_main_v5_apply, Cert.ReferenceIdeal.Read.val_main_v7_apply,
    Cert.ReferenceIdeal.Read.val_main_v6_apply]
  unfold ProjVal.projArr
  show (∑ k : Fin 128, x (ix2 n k) * Wcat w0 w1 w2 (ix2 k ⟨128 + j.val, hq⟩)) + Bcat b0 b1 b2 (ix2 (0 : Fin 1) ⟨128 + j.val, hq⟩)
    = (∑ k : Fin 128, x (Cert.ReferenceIdeal.Read.lidx_main_v5 (ix2 n j) k) * w1 (Cert.ReferenceIdeal.Read.ridx_main_v5 (ix2 n j) k))
      + b1 (Cert.ReferenceIdeal.Read.idx_main_v6 (Cert.ReferenceIdeal.Read.idx_main_v7 (ix2 n j)))
  refine congrArg₂ (· + ·) (Finset.sum_congr rfl fun k _ => ?_) ?_
  · rw [wcat_1 w0 w1 w2 k j _ rfl]
    refine congrArg₂ (· * ·) (congrArg x (funext fun a => Fin.ext ?_)) (congrArg w1 (funext fun a => Fin.ext ?_))
    · match a with
      | ⟨0, _⟩ => rfl
      | ⟨1, _⟩ => rfl
    · match a with
      | ⟨0, _⟩ => rfl
      | ⟨1, _⟩ => rfl
  · rw [bcat_1 b0 b1 b2 0 j _ rfl]
    refine congrArg b1 (funext fun a => Fin.ext ?_)
    match a with
    | ⟨0, _⟩ => rfl

/-- Columns 256 … 383 of the joint projection are the projection by weight piece 2 and bias piece 2: the
    reference's `x · W + b` for that piece, entry by entry. -/
theorem slice_proj_2 (x : S50000x128.Idx → EReal) (w0 w1 w2 : S128x128.Idx → EReal) (b0 b1 b2 : S128.Idx → EReal) :
    extractStridedSlice S50000x128 ![0, 256] (ProjVal.projArr x (Wcat w0 w1 w2) (Bcat b0 b1 b2)) slices_S50000x384_S50000x128_0_256
      = Cert.ReferenceIdeal.Read.val_main_v13 (F := Ideal) x w2 b2 := by
  funext i
  obtain ⟨n, j, rfl⟩ : ∃ (n : Fin 50000) (j : Fin 128), i = ix2 n j := ⟨i 0, i 1, eq_ix2 i⟩
  have hq : 256 + j.val < 384 := by have := j.isLt; omega
  rw [slice2_axis1_apply 256 _ _ n j ⟨256 + j.val, hq⟩ rfl,
    Cert.ReferenceIdeal.Read.val_main_v13_apply, Cert.ReferenceIdeal.Read.val_main_v10_apply, Cert.ReferenceIdeal.Read.val_main_v12_apply,
    Cert.ReferenceIdeal.Read.val_main_v11_apply]
  unfold ProjVal.projArr
  show (∑ k : Fin 128, x (ix2 n k) * Wcat w0 w1 w2 (ix2 k ⟨256 + j.val, hq⟩)) + Bcat b0 b1 b2 (ix2 (0 : Fin 1) ⟨256 + j.val, hq⟩)
    = (∑ k : Fin 128, x (Cert.ReferenceIdeal.Read.lidx_main_v10 (ix2 n j) k) * w2 (Cert.ReferenceIdeal.Read.ridx_main_v10 (ix2 n j) k))
      + b2 (Cert.ReferenceIdeal.Read.idx_main_v11 (Cert.ReferenceIdeal.Read.idx_main_v12 (ix2 n j)))
  refine congrArg₂ (· + ·) (Finset.sum_congr rfl fun k _ => ?_) ?_
  · rw [wcat_2 w0 w1 w2 k j _ rfl]
    refine congrArg₂ (· * ·) (congrArg x (funext fun a => Fin.ext ?_)) (congrArg w2 (funext fun a => Fin.ext ?_))
    · match a with
      | ⟨0, _⟩ => rfl
      | ⟨1, _⟩ => rfl
    · match a with
      | ⟨0, _⟩ => rfl
      | ⟨1, _⟩ => rfl
  · rw [bcat_2 b0 b1 b2 0 j _ rfl]
    refine congrArg b2 (funext fun a => Fin.ext ?_)
    match a with
    | ⟨0, _⟩ => rfl

end Cert.KernelIdeal.HostVal

end
-- ==== Proof.KVHost.lean ====
/-
  The host stretches of the kernel's program, read one result at a time.

  Before the projection region the three weight matrices are laid side by side and the three biases end to end.  Between
  the regions the projected array is cut into its three column bands, each band's rows are gathered by the edges'
  (wrapped) source or destination node and split into 8 heads of 16 lanes, and the edge-type rows are gathered from the
  two tables and joined.  After the edge region the messages and the scores are summed per destination node and
  divided.  Each lemma states one buffer's contents at a boundary as the host operations' function of the buffers one
  boundary earlier; the index arithmetic (wrap a negative index, broadcast to a column) and the last stretch are the
  very operations the reference applies, so they are named by the reference's own stage functions.
-/
import proofs.«170937_j69363721830857_2_alg».proof.Proof.KIDefs
import proofs.«170937_j69363721830857_2_alg».proof.Proof.Gen.KernelIdeal.Regions
import proofs.«170937_j69363721830857_2_alg».proof.Proof.Gen.ReferenceIdeal.Read
import proofs.«170937_j69363721830857_2_alg».proof.Proof.ProjBridge
import Idealize.ShloMosaic.Lib.StableHlo.Run

noncomputable section

namespace Cert.KernelIdeal.HostVal

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg) (c : Dev nD)

/-! ## Before the projection region -/

theorem W1_v0 : W1 m ρ c (Proc.devRef .tc main_v0)
    = Wcat (m ((c : Thread nD τ).loc main_arg1)) (m ((c : Thread nD τ).loc main_arg3)) (m ((c : Thread nD τ).loc main_arg5)) := by
  show StableHlo.after hostOps0 (W0 m ρ c) (Proc.devRef .tc main_v0) = _
  after_results
  rfl

theorem W1_v2 : W1 m ρ c (Proc.devRef .tc main_v2)
    = Bcat (m ((c : Thread nD τ).loc main_arg2)) (m ((c : Thread nD τ).loc main_arg4)) (m ((c : Thread nD τ).loc main_arg6)) := by
  show StableHlo.after hostOps0 (W0 m ρ c) (Proc.devRef .tc main_v2) = _
  after_results
  rfl

/-- No operation of the first stretch writes an argument. -/
theorem W1_arg (r : Ref sig .tc) (h : r ∉ hostOps0_W) : W1 m ρ c (Proc.devRef .tc r) = m ((c : Thread nD τ).loc r) :=
  StableHlo.after_of_writes_sub hostOps0 _ hostOps0_writes h

/-! ## Between the regions -/

set_option maxHeartbeats 4000000 in
theorem W3_v14 : W3 m ρ c (Proc.devRef .tc main_v14)
    = shapeCast S650000x8x16 (Host.gather gather_S50000x128_S650000x1_S650000x128_1_0_n_n_0_1_1128
        (extractStridedSlice S50000x128 ![0, 128] (W2 m ρ c (Proc.devRef .tc main_v3)) slices_S50000x384_S50000x128_0_128)
        (Cert.ReferenceIdeal.Read.val_main_v36 (F := Ideal) (W2 m ρ c (Proc.devRef .tc main_arg11)))) shapeCasts_S650000x128_S650000x8x16 := by
  show StableHlo.after hostOps1 (W2 m ρ c) (Proc.devRef .tc main_v14) = _
  after_results_simp
  rfl

end Cert.KernelIdeal.HostVal

end
-- ==== Proof.KVHostQ.lean ====
/-
  Between the regions: the query slabs — the first column band of the projection, its rows gathered by the edges'
  (wrapped) destination nodes, each row split into 8 heads of 16 lanes.
-/
import proofs.«170937_j69363721830857_2_alg».proof.Proof.KVHost

noncomputable section

namespace Cert.KernelIdeal.HostVal

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg) (c : Dev nD)

set_option maxHeartbeats 4000000 in
theorem W3_v22 : W3 m ρ c (Proc.devRef .tc main_v22)
    = shapeCast S650000x8x16 (Host.gather gather_S50000x128_S650000x1_S650000x128_1_0_n_n_0_1_1128
        (extractStridedSlice S50000x128 ![0, 0] (W2 m ρ c (Proc.devRef .tc main_v3)) slices_S50000x384_S50000x128_0_0)
        (Cert.ReferenceIdeal.Read.val_main_v43 (F := Ideal) (W2 m ρ c (Proc.devRef .tc main_arg12)))) shapeCasts_S650000x128_S650000x8x16 := by
  show StableHlo.after hostOps1 (W2 m ρ c) (Proc.devRef .tc main_v22) = _
  after_results_simp
  rfl

end Cert.KernelIdeal.HostVal

end
-- ==== Proof.KVHostV.lean ====
/-
  Between the regions: the value slabs — the third column band of the projection, its rows gathered by the edges'
  (wrapped) source nodes, each row split into 8 heads of 16 lanes.
-/
import proofs.«170937_j69363721830857_2_alg».proof.Proof.KVHostQ

noncomputable section

namespace Cert.KernelIdeal.HostVal

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg) (c : Dev nD)

set_option maxHeartbeats 4000000 in
theorem W3_v30 : W3 m ρ c (Proc.devRef .tc main_v30)
    = shapeCast S650000x8x16 (Host.gather gather_S50000x128_S650000x1_S650000x128_1_0_n_n_0_1_1128
        (extractStridedSlice S50000x128 ![0, 256] (W2 m ρ c (Proc.devRef .tc main_v3)) slices_S50000x384_S50000x128_0_256)
        (Cert.ReferenceIdeal.Read.val_main_v57 (F := Ideal) (W2 m ρ c (Proc.devRef .tc main_arg11)))) shapeCasts_S650000x128_S650000x8x16 := by
  show StableHlo.after hostOps1 (W2 m ρ c) (Proc.devRef .tc main_v30) = _
  after_results_simp
  rfl

end Cert.KernelIdeal.HostVal

end
-- ==== Proof.KVHostE.lean ====
/-
  Between the regions: the edge-type rows — gathered from the two tables by the (wrapped) edge types, joined, each row
  split into 8 heads of 16 lanes: the reference's own operations on the same arguments.
-/
import proofs.«170937_j69363721830857_2_alg».proof.Proof.KVHostV

noncomputable section

namespace Cert.KernelIdeal.HostVal

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg) (c : Dev nD)

set_option maxHeartbeats 4000000 in
theorem W3_v46 : W3 m ρ c (Proc.devRef .tc main_v46)
    = Cert.ReferenceIdeal.Read.val_main_v30 (F := Ideal) (W2 m ρ c (Proc.devRef .tc main_arg7)) (W2 m ρ c (Proc.devRef .tc main_arg8))
        (W2 m ρ c (Proc.devRef .tc main_arg9)) (W2 m ρ c (Proc.devRef .tc main_arg10)) := by
  show StableHlo.after hostOps1 (W2 m ρ c) (Proc.devRef .tc main_v46) = _
  after_results_simp
  rfl

end Cert.KernelIdeal.HostVal

end
-- ==== Proof.EdgeSpec.lean ====
/-
  The per-edge arithmetic of the attention layer, on the extended reals, over any number `n` of edges.

  For per-edge key, query and edge-type rows `K, Q, E : [n, 8, 16]` (8 heads of width 16) the head's logit is
  the sum over the 16 lanes of `K · Q · E` scaled by one quarter; the score is `exp` of the logit clipped to [-5, 5];
  the message is the value row `V` scaled, lane by lane, by its head's score.  The two programs multiply the four
  factors of a lane in different orders — `((K·Q)·¼)·E` against `((K·Q)·E)·¼` — which is the same extended real:
  the product of extended reals is commutative and associative, infinities included, so nothing here needs the
  inputs to be finite.
-/
import Idealize.ShloMosaic.PureOps.Ideal
import Idealize.ShloMosaic.Lib.ValueIdx

noncomputable section

namespace EdgeSpec

open Idealize.ShloMosaic Idealize.ShloMosaic.ValueIdx

/-- The clip's lower bound, −5. -/
abbrev lo : EReal := Ideal.ofBits .f32 0xC0A00000#32
/-- The clip's upper bound, 5. -/
abbrev hi : EReal := Ideal.ofBits .f32 0x40A00000#32
/-- The scale 1/√16 = ¼. -/
abbrev quarter : EReal := Ideal.ofBits .f32 0x3E800000#32

/-- A logit clipped to [−5, 5] and exponentiated. -/
def gate (s : EReal) : EReal := Ideal.exp (min hi (max lo s))

/-- The score of edge `e`, head `h`: the gate of the scaled three-way lane product summed over the head's 16 lanes. -/
def score {n : ℕ} (K Q E : (⟨3, ![n, 8, 16]⟩ : Shape).Idx → EReal) (e : Fin n) (h : Fin 8) : EReal :=
  gate (∑ d : Fin 16, K (ix3 e h d) * Q (ix3 e h d) * quarter * E (ix3 e h d))

/-- The message of edge `e`, head `h`, lane `d`: the value entry times the head's score. -/
def msg {n : ℕ} (K Q V E : (⟨3, ![n, 8, 16]⟩ : Shape).Idx → EReal) (e : Fin n) (h : Fin 8) (d : Fin 16) : EReal :=
  V (ix3 e h d) * score K Q E e h

/-- The score with the quarter applied last in each lane — the same number, by commutativity of the product. -/
theorem score_scale_last {n : ℕ} (K Q E : (⟨3, ![n, 8, 16]⟩ : Shape).Idx → EReal) (e : Fin n) (h : Fin 8) :
    gate (∑ d : Fin 16, K (ix3 e h d) * Q (ix3 e h d) * E (ix3 e h d) * quarter) = score K Q E e h := by
  unfold score
  exact congrArg gate (Finset.sum_congr rfl fun d _ => mul_right_comm _ _ _)

/-- The score array of 650000 edges: at (e, h) the score of edge e, head h of the key, query and edge-type arrays. -/
def scoreArr (K Q E : (⟨3, ![650000, 8, 16]⟩ : Shape).Idx → EReal) : (⟨2, ![650000, 8]⟩ : Shape).Idx → EReal :=
  fun i => score (n := 650000) K Q E (i 0) (i 1)

/-- The message array of 650000 edges: at (e, h, d) the value entry times the score of edge e, head h. -/
def msgArr (K Q V E : (⟨3, ![650000, 8, 16]⟩ : Shape).Idx → EReal) : (⟨3, ![650000, 8, 16]⟩ : Shape).Idx → EReal :=
  fun i => msg (n := 650000) K Q V E (i 0) (i 1) (i 2)

end EdgeSpec

end
-- ==== Proof.LibLayoutIdx.lean ====
/-
  Layout operations of three- and four-axis arrays read at an entry given by its coordinates: a trailing unit axis
  added or dropped, a unit axis broadcast, two axes merged into one or one axis split into two (row-major), and a
  one-position cut along the last axis.  Each is the operand at the entry with the same row-major position.
-/
import Idealize.ShloMosaic.Lib.ValueIdx
import Idealize.ShloMosaic.Lib.Pipeline.Value

noncomputable section

namespace LibLayoutIdx

open Idealize.ShloMosaic Idealize.ShloMosaic.ValueIdx

variable {α : Type}

/-- [a, b] viewed as [a, b, 1], at (p, q, z): the operand at (p, q). -/
theorem shapeCast_ab_ab1 {a b : ℕ} (x : (⟨2, ![a, b]⟩ : Shape).Idx → α) (h : (⟨2, ![a, b]⟩ : Shape).ShapeCasts ⟨3, ![a, b, 1]⟩)
    (p : Fin a) (q : Fin b) (z : Fin 1) : shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  omega

/-- [a, b, 1] broadcast along its unit axis to [a, b, n], at (p, q, r): the operand at (p, q, 0). -/
theorem broadcastTo_ab1_abn {a b n : ℕ} (x : (⟨3, ![a, b, 1]⟩ : Shape).Idx → α) (h : (⟨3, ![a, b, 1]⟩ : Shape).Broadcasts ⟨3, ![a, b, n]⟩)
    (hb : b ≠ 1) (ha : a ≠ 1) (p : Fin a) (q : Fin b) (r : Fin n) :
    broadcastTo ⟨3, ![a, b, n]⟩ x h (ix3 p q r) = x (ix3 p q (0 : Fin 1)) := by
  refine broadcastTo_apply x h _ _ (fun ax => ?_)
  match ax with
  | ⟨0, _⟩ => show p.val = if a = 1 then 0 else p.val; rw [if_neg ha]
  | ⟨1, _⟩ => show q.val = if b = 1 then 0 else q.val; rw [if_neg hb]
  | ⟨2, _⟩ => show (0 : ℕ) = if (1 : ℕ) = 1 then 0 else r.val; rw [if_pos rfl]

/-- [a, 1] broadcast along its unit axis to [a, b], at (p, q): the operand at (p, 0). -/
theorem broadcastTo_a1_ab {a b : ℕ} (x : (⟨2, ![a, 1]⟩ : Shape).Idx → α) (h : (⟨2, ![a, 1]⟩ : Shape).Broadcasts ⟨2, ![a, b]⟩)
    (ha : a ≠ 1) (p : Fin a) (q : Fin b) : broadcastTo ⟨2, ![a, b]⟩ x h (ix2 p q) = x (ix2 p (0 : Fin 1)) := by
  refine broadcastTo_apply x h _ _ (fun ax => ?_)
  match ax with
  | ⟨0, _⟩ => show p.val = if a = 1 then 0 else p.val; rw [if_neg ha]
  | ⟨1, _⟩ => show (0 : ℕ) = if (1 : ℕ) = 1 then 0 else q.val; rw [if_pos rfl]

/-- [a, 1] viewed as [a], at p: the operand at (p, 0). -/
theorem shapeCast_a1_a {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) := by
  refine shapeCast_apply x h _ _ ?_
  rw [Shape.rowMajor_val_one, Shape.rowMajor_val_two]
  show p.val * 1 + 0 = p.val
  omega

/-- [a, b, c] with its last two axes merged, [a, n] with n = b·c, at (p, j) where j = q·c + r: the operand at (p, q, r). -/
theorem shapeCast_abc_an {a b c n : ℕ} (x : (⟨3, ![a, b, c]⟩ : Shape).Idx → α) (h : (⟨3, ![a, b, c]⟩ : Shape).ShapeCasts ⟨2, ![a, n]⟩)
    (hn : n = b * c) (p : Fin a) (j : Fin n) (q : Fin b) (r : Fin c) (hj : j.val = q.val * c + r.val) :
    shapeCast ⟨2, ![a, n]⟩ x h (ix2 p j) = x (ix3 p q r) := by
  refine shapeCast_apply x h _ _ ?_
  rw [Shape.rowMajor_val_three, Shape.rowMajor_val_two]
  show (p.val * b + q.val) * c + r.val = p.val * n + j.val
  rw [hj, hn]; ring

/-- [a, n] with its last axis split, [a, b, c] with n = b·c, at (p, q, r): the operand at (p, j), j = q·c + r. -/
theorem shapeCast_an_abc {a b c n : ℕ} (x : (⟨2, ![a, n]⟩ : Shape).Idx → α) (h : (⟨2, ![a, n]⟩ : Shape).ShapeCasts ⟨3, ![a, b, c]⟩)
    (hn : n = b * c) (p : Fin a) (q : Fin b) (r : Fin c) (j : Fin n) (hj : j.val = q.val * c + r.val) :
    shapeCast ⟨3, ![a, b, c]⟩ x h (ix3 p q r) = x (ix2 p j) := by
  refine shapeCast_apply x h _ _ ?_
  rw [Shape.rowMajor_val_three, Shape.rowMajor_val_two]
  show p.val * n + j.val = (p.val * b + q.val) * c + r.val
  rw [hj, hn]; ring

/-- [a, m, w] with its middle axis split in pairs, [a, h, 2, w] with m = 2·h, at (p, i, u, x): the operand at (p, 2i + u, x). -/
theorem shapeCast_split_rows {a m h w : ℕ} (v : (⟨3, ![a, m, w]⟩ : Shape).Idx → α) (hc : (⟨3, ![a, m, w]⟩ : Shape).ShapeCasts ⟨4, ![a, h, 2, w]⟩)
    (hm : m = 2 * h) (p : Fin a) (i : Fin h) (u : Fin 2) (x : Fin w) (k : Fin m) (hk : k.val = 2 * i.val + u.val) :
    shapeCast ⟨4, ![a, h, 2, w]⟩ v hc (ix4 p i u x) = v (ix3 p k x) := by
  refine shapeCast_apply v hc _ _ ?_
  rw [Shape.rowMajor_val_three, Shape.rowMajor_val_four]
  show (p.val * m + k.val) * w + x.val = ((p.val * h + i.val) * 2 + u.val) * w + x.val
  rw [hk, hm]; ring

/-- [a, h, 1, w] with its unit axis dropped, [a, h, w], at (p, i, x): the operand at (p, i, 0, x). -/
theorem shapeCast_drop_mid {a h w : ℕ} (v : (⟨4, ![a, h, 1, w]⟩ : Shape).Idx → α) (hc : (⟨4, ![a, h, 1, w]⟩ : Shape).ShapeCasts ⟨3, ![a, h, w]⟩)
    (p : Fin a) (i : Fin h) (x : Fin w) : shapeCast ⟨3, ![a, h, w]⟩ v hc (ix3 p i x) = v (ix4 p i (0 : Fin 1) x) := by
  refine shapeCast_apply v hc _ _ ?_
  rw [Shape.rowMajor_val_three, Shape.rowMajor_val_four]
  show ((p.val * h + i.val) * 1 + 0) * w + x.val = (p.val * h + i.val) * w + x.val
  ring

/-- [a, h, m] with its last axis split in pairs, [a, h, w, 2] with m = 2·w, at (p, i, j, u): the operand at (p, i, 2j + u). -/
theorem shapeCast_split_cols {a h m w : ℕ} (v : (⟨3, ![a, h, m]⟩ : Shape).Idx → α) (hc : (⟨3, ![a, h, m]⟩ : Shape).ShapeCasts ⟨4, ![a, h, w, 2]⟩)
    (hm : m = 2 * w) (p : Fin a) (i : Fin h) (j : Fin w) (u : Fin 2) (k : Fin m) (hk : k.val = 2 * j.val + u.val) :
    shapeCast ⟨4, ![a, h, w, 2]⟩ v hc (ix4 p i j u) = v (ix3 p i k) := by
  refine shapeCast_apply v hc _ _ ?_
  rw [Shape.rowMajor_val_three, Shape.rowMajor_val_four]
  show (p.val * h + i.val) * m + k.val = ((p.val * h + i.val) * w + j.val) * 2 + u.val
  rw [hk, hm]; ring

/-- One position `o` of the last axis of a four-axis array, kept as a unit axis, at (p, i, j, z): the operand at (p, i, j, o). -/
theorem slice4_axis3_apply {n0 n1 n2 n3 : ℕ} (o : ℕ) (X : (⟨4, ![n0, n1, n2, n3]⟩ : Shape).Idx → α)
    (h : (⟨4, ![n0, n1, n2, n3]⟩ : Shape).Slices ![0, 0, 0, o] ⟨4, ![n0, n1, n2, 1]⟩)
    (p : Fin n0) (i : Fin n1) (j : Fin n2) (z : Fin 1) (k : Fin n3) (hk : k.val = o) :
    extractStridedSlice ⟨4, ![n0, n1, n2, 1]⟩ ![0, 0, 0, o] X h (ix4 p i j z) = X (ix4 p i j k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => show k.val = o + z.val; omega)

/-- [a, h, w, 1] with its trailing unit axis dropped, [a, h, w], at (p, i, j): the operand at (p, i, j, 0). -/
theorem shapeCast_drop_last {a h w : ℕ} (v : (⟨4, ![a, h, w, 1]⟩ : Shape).Idx → α) (hc : (⟨4, ![a, h, w, 1]⟩ : Shape).ShapeCasts ⟨3, ![a, h, w]⟩)
    (p : Fin a) (i : Fin h) (j : Fin w) : shapeCast ⟨3, ![a, h, w]⟩ v hc (ix3 p i j) = v (ix4 p i j (0 : Fin 1)) := by
  refine shapeCast_apply v hc _ _ ?_
  rw [Shape.rowMajor_val_three, Shape.rowMajor_val_four]
  show ((p.val * h + i.val) * w + j.val) * 1 + 0 = (p.val * h + i.val) * w + j.val
  ring

end LibLayoutIdx

end
-- ==== Proof.EdgePayload.lean ====
/-
  The edge kernel's two stored values, read at an entry.

  Of the four loaded blocks `K, Q, V, E : [520, 8, 16]` the body stores, into the score block at (r, h), the gate
  (clip to [−5, 5], then exp) of the sum over the head's 16 lanes of `K·Q·E` scaled by one quarter, and into the
  message block at (r, h, d) the value entry `V(r, h, d)` times that score: `EdgeSpec.score` and `EdgeSpec.msg` of the
  blocks.  The lane sum is the vector reduction over the last axis; the score reaches the message through a unit axis
  added and broadcast.
-/
import proofs.«170937_j69363721830857_2_alg».proof.Proof.Gen.KernelIdeal.Skeleton
import proofs.«170937_j69363721830857_2_alg».proof.Proof.EdgeSpec
import proofs.«170937_j69363721830857_2_alg».proof.Proof.LibLayoutIdx
import Idealize.ShloMosaic.Lib.Pipeline.Value
import Idealize.ShloMosaic.PureOps.Ideal.Laws

noncomputable section

namespace Cert.KernelIdeal.EdgeVal

open Cert.KernelIdeal Cert.KernelIdeal.Gen Idealize.ShloMosaic Idealize.ShloMosaic.ValueIdx

/-- The lane sum the body takes, at (r, h): the sum over the 16 lanes of the operand at (r, h, ·). -/
theorem lane_sum (src : FVec Ideal S520x8x16 .f32) (r : Fin 520) (h : Fin 8) :
    multiReduction .add [2] S520x8 src 0x00000000#32 reduces_S520x8x16_S520x8 (.inl rfl) rfl (ix2 r h)
      = ∑ d : Fin 16, src (ix3 r h d) := by
  refine (Ideal.multiReduction_add_single src 0x00000000#32 reduces_S520x8x16_S520x8 (.inl rfl) rfl (ix2 r h)).trans ?_
  refine Finset.sum_congr rfl fun d _ => congrArg src (funext fun a => Fin.ext ?_)
  match a with
  | ⟨0, _⟩ => rfl
  | ⟨1, _⟩ => rfl
  | ⟨2, _⟩ => rfl

/-- THE SCORE BLOCK at (r, h): the score of row r, head h of the three loaded blocks. -/
theorem pay1_apply (v0 v2 v6 : Vec Ideal S520x8x16 .f32) (r : Fin 520) (h : Fin 8) :
    k1_pay1 (F := Ideal) v0 v2 v6 (ix2 r h) = EdgeSpec.score v0 v2 v6 r h := by
  rw [← EdgeSpec.score_scale_last]
  unfold k1_pay1 EdgeSpec.gate
  simp only [shapeCast_self]
  show Ideal.exp (min EdgeSpec.hi (max EdgeSpec.lo
    (multiReduction (F := Ideal) .add [2] S520x8 (mulf (mulf (mulf v0 v2) v6) (broadcast S520x8x16 (Scalar.ofBits (F := Ideal) .f32 0x3E800000#32)))
      0x00000000#32 reduces_S520x8x16_S520x8 (.inl rfl) rfl (ix2 r h)))) = _
  rw [lane_sum]
  rfl

/-- THE MESSAGE BLOCK at (r, h, d): the value entry times the score of row r, head h. -/
theorem pay2_apply (v0 v2 v4 v6 : Vec Ideal S520x8x16 .f32) (r : Fin 520) (h : Fin 8) (d : Fin 16) :
    k1_pay2 (F := Ideal) v0 v2 v4 v6 (ix3 r h d) = EdgeSpec.msg v0 v2 v4 v6 r h d := by
  unfold k1_pay2 EdgeSpec.msg
  simp only [shapeCast_self]
  rw [mulf_apply, LibLayoutIdx.broadcastTo_ab1_abn _ _ (by decide) (by decide) r h d,
    LibLayoutIdx.shapeCast_ab_ab1 _ _ r h (0 : Fin 1), pay1_apply]

end Cert.KernelIdeal.EdgeVal

end
-- ==== Proof.KVRegion1.lean ====
/-
  What the edge region leaves in its two output arrays, as whole arrays.

  The region walks the 650000 edges in 1250 blocks of 520 consecutive rows; at block `t` every window — the four
  inputs, the message, the score — sits at rows `520·t … 520·t + 519`, all heads and lanes.  The body's stored
  values are row by row `EdgeSpec.score` / `EdgeSpec.msg` of the loaded blocks, a block's row r is the array's row
  `520·t + r`, and the 1250 blocks tile the arrays; so after the region the score array holds at (e, h) the score of
  edge e, head h of the three input ARRAYS, and the message array at (e, h, d) their message.
-/
import proofs.«170937_j69363721830857_2_alg».proof.Proof.KIDefs
import proofs.«170937_j69363721830857_2_alg».proof.Proof.Gen.KernelIdeal.Points
import proofs.«170937_j69363721830857_2_alg».proof.Proof.EdgePayload

noncomputable section

namespace Cert.KernelIdeal.EdgeVal

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- Every window's block index at point `t`: block `t` along the edges, the only block along heads and lanes. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0
    ∧ win1_5.index t (0 : Fin 2) = t.val ∧ win1_5.index t (1 : Fin 2) = 0 :=
  (by decide +kernel : ∀ t : Fin grid1.N, _)

/-- Row r of block t is the array's row 520·t + r. -/
def row (t : Fin cfg1.N) (r : Fin 520) : Fin 650000 :=
  ⟨t.val * 520 + r.val, by have ht : t.val < 1250 := lt_of_lt_of_eq t.isLt N_1; have hr := r.isLt; omega⟩

/-- Input window 0's block at point `t`, at (r, h, d): its array's entry in row `520·t + r`. -/
theorem iblk1_0_apply (c : Dev nD) (t : Fin cfg1.N) (r : Fin 520) (h : Fin 8) (d : Fin 16) :
    iblk1 V c 0 t (ix3 r h d) = V c main_v14 (ix3 (row t r) h d) := by
  show V c main_v14 (((cfg1.win 0).blk t).view.emb (ix3 r h d)) = _
  refine congrArg (V c main_v14) (funext fun a => Fin.ext ?_)
  have e := idx_facts1 t
  match a with
  | ⟨0, _⟩ => show win1_0.index t (0 : Fin 3) * 520 + 1 * r.val = t.val * 520 + r.val; omega
  | ⟨1, _⟩ => show win1_0.index t (1 : Fin 3) * 8 + 1 * h.val = h.val; omega
  | ⟨2, _⟩ => show win1_0.index t (2 : Fin 3) * 16 + 1 * d.val = d.val; omega

/-- Input window 1's block at point `t`, at (r, h, d): its array's entry in row `520·t + r`. -/
theorem iblk1_1_apply (c : Dev nD) (t : Fin cfg1.N) (r : Fin 520) (h : Fin 8) (d : Fin 16) :
    iblk1 V c 1 t (ix3 r h d) = V c main_v22 (ix3 (row t r) h d) := by
  show V c main_v22 (((cfg1.win 1).blk t).view.emb (ix3 r h d)) = _
  refine congrArg (V c main_v22) (funext fun a => Fin.ext ?_)
  have e := idx_facts1 t
  match a with
  | ⟨0, _⟩ => show win1_1.index t (0 : Fin 3) * 520 + 1 * r.val = t.val * 520 + r.val; omega
  | ⟨1, _⟩ => show win1_1.index t (1 : Fin 3) * 8 + 1 * h.val = h.val; omega
  | ⟨2, _⟩ => show win1_1.index t (2 : Fin 3) * 16 + 1 * d.val = d.val; omega

/-- Input window 2's block at point `t`, at (r, h, d): its array's entry in row `520·t + r`. -/
theorem iblk1_2_apply (c : Dev nD) (t : Fin cfg1.N) (r : Fin 520) (h : Fin 8) (d : Fin 16) :
    iblk1 V c 2 t (ix3 r h d) = V c main_v30 (ix3 (row t r) h d) := by
  show V c main_v30 (((cfg1.win 2).blk t).view.emb (ix3 r h d)) = _
  refine congrArg (V c main_v30) (funext fun a => Fin.ext ?_)
  have e := idx_facts1 t
  match a with
  | ⟨0, _⟩ => show win1_2.index t (0 : Fin 3) * 520 + 1 * r.val = t.val * 520 + r.val; omega
  | ⟨1, _⟩ => show win1_2.index t (1 : Fin 3) * 8 + 1 * h.val = h.val; omega
  | ⟨2, _⟩ => show win1_2.index t (2 : Fin 3) * 16 + 1 * d.val = d.val; omega

/-- Input window 3's block at point `t`, at (r, h, d): its array's entry in row `520·t + r`. -/
theorem iblk1_3_apply (c : Dev nD) (t : Fin cfg1.N) (r : Fin 520) (h : Fin 8) (d : Fin 16) :
    iblk1 V c 3 t (ix3 r h d) = V c main_v46 (ix3 (row t r) h d) := by
  show V c main_v46 (((cfg1.win 3).blk t).view.emb (ix3 r h d)) = _
  refine congrArg (V c main_v46) (funext fun a => Fin.ext ?_)
  have e := idx_facts1 t
  match a with
  | ⟨0, _⟩ => show win1_3.index t (0 : Fin 3) * 520 + 1 * r.val = t.val * 520 + r.val; omega
  | ⟨1, _⟩ => show win1_3.index t (1 : Fin 3) * 8 + 1 * h.val = h.val; omega
  | ⟨2, _⟩ => show win1_3.index t (2 : Fin 3) * 16 + 1 * d.val = d.val; omega

/-- WHAT POINT `t` WRITES BACK INTO THE SCORE ARRAY is block `t` of the score array of the three input arrays. -/
theorem flushed5_eq (c : Dev nD) (t : Fin cfg1.N) :
    (dat1 V c).flushed 5 t = ((cfg1.win 5).blk t).view.read (Elt Ideal) (EdgeSpec.scoreArr (V c main_v14) (V c main_v22) (V c main_v46)) := by
  show (cfg1.win 5).cut (grid1.coords t) ((dat1 V c).after 5 t) = _
  rw [after1_5]
  unfold out1_5
  rw [View.canon_unit_zero hz2]
  simp only [View.ld_unit_zero (S := S520x8x16) hz3]
  funext j
  obtain ⟨r, h, rfl⟩ : ∃ (r : Fin 520) (h : Fin 8), j = ix2 r h := ⟨j 0, j 1, eq_ix2 j⟩
  show k1_pay1 (F := Ideal) (iblk1 V c 0 t) (iblk1 V c 1 t) (iblk1 V c 3 t) (ix2 r h)
    = EdgeSpec.scoreArr (V c main_v14) (V c main_v22) (V c main_v46) (((cfg1.win 5).blk t).view.emb (ix2 r h))
  refine (pay1_apply _ _ _ r h).trans ?_
  have e := idx_facts1 t
  have hrow : (((cfg1.win 5).blk t).view.emb (ix2 r h)) = ix2 (row t r) h := by
    funext a; apply Fin.ext
    match a with
    | ⟨0, _⟩ => show win1_5.index t (0 : Fin 2) * 520 + 1 * r.val = t.val * 520 + r.val; omega
    | ⟨1, _⟩ => show win1_5.index t (1 : Fin 2) * 8 + 1 * h.val = h.val; omega
  rw [hrow]
  unfold EdgeSpec.scoreArr EdgeSpec.score
  simp only [iblk1_0_apply, iblk1_1_apply, iblk1_3_apply]

/-- WHAT POINT `t` WRITES BACK INTO THE MESSAGE ARRAY is block `t` of the message array of the four input arrays. -/
theorem flushed4_eq (c : Dev nD) (t : Fin cfg1.N) :
    (dat1 V c).flushed 4 t = ((cfg1.win 4).blk t).view.read (Elt Ideal)
      (EdgeSpec.msgArr (V c main_v14) (V c main_v22) (V c main_v30) (V c main_v46)) := by
  show (cfg1.win 4).cut (grid1.coords t) ((dat1 V c).after 4 t) = _
  rw [after1_4]
  unfold out1_4
  rw [View.canon_unit_zero hz3]
  simp only [View.ld_unit_zero (S := S520x8x16) hz3]
  funext j
  obtain ⟨r, h, d, rfl⟩ : ∃ (r : Fin 520) (h : Fin 8) (d : Fin 16), j = ix3 r h d := ⟨j 0, j 1, j 2, eq_ix3 j⟩
  show k1_pay2 (F := Ideal) (iblk1 V c 0 t) (iblk1 V c 1 t) (iblk1 V c 2 t) (iblk1 V c 3 t) (ix3 r h d)
    = EdgeSpec.msgArr (V c main_v14) (V c main_v22) (V c main_v30) (V c main_v46) (((cfg1.win 4).blk t).view.emb (ix3 r h d))
  refine (pay2_apply _ _ _ _ r h d).trans ?_
  have e := idx_facts1 t
  have hrow : (((cfg1.win 4).blk t).view.emb (ix3 r h d)) = ix3 (row t r) h d := by
    funext a; apply Fin.ext
    match a with
    | ⟨0, _⟩ => show win1_4.index t (0 : Fin 3) * 520 + 1 * r.val = t.val * 520 + r.val; omega
    | ⟨1, _⟩ => show win1_4.index t (1 : Fin 3) * 8 + 1 * h.val = h.val; omega
    | ⟨2, _⟩ => show win1_4.index t (2 : Fin 3) * 16 + 1 * d.val = d.val; omega
  rw [hrow]
  unfold EdgeSpec.msgArr EdgeSpec.msg EdgeSpec.score
  simp only [iblk1_0_apply, iblk1_1_apply, iblk1_2_apply, iblk1_3_apply]

/-- An index of the score array is in point `t`'s block iff each coordinate is in the block's range on its axis. -/
theorem mem_blk5 (t : Fin cfg1.N) (i : S650000x8.Idx) :
    i ∈ ((cfg1.win 5).blk t).view.set ↔ ∀ a : Fin 2, win1_5.index t a * S520x8.size a ≤ (i a).val ∧ (i a).val < win1_5.index t a * S520x8.size a + S520x8.size a := by
  show i ∈ ((View.whole main_v47_1).slice (win1_5.rect t)).set ↔ _
  rw [View.set_slice_whole, Rect.mem_set_unit]
  exact Iff.rfl

theorem mem_blk4 (t : Fin cfg1.N) (i : S650000x8x16.Idx) :
    i ∈ ((cfg1.win 4).blk t).view.set ↔ ∀ a : Fin 3, win1_4.index t a * S520x8x16.size a ≤ (i a).val ∧ (i a).val < win1_4.index t a * S520x8x16.size a + S520x8x16.size a := by
  show i ∈ ((View.whole main_v47_0).slice (win1_4.rect t)).set ↔ _
  rw [View.set_slice_whole, Rect.mem_set_unit]
  exact Iff.rfl

/-- The block that holds edge e is block e / 520. -/
def blockOf (e : ℕ) (he : e < 650000) : Fin cfg1.N := ⟨e / 520, lt_of_lt_of_eq (by omega) N_1.symm⟩

/-- The 1250 score blocks cover the score array. -/
theorem cover5 (i : S650000x8.Idx) : ∃ t : Fin cfg1.N, (cfg1.win 5).flush t = true ∧ i ∈ ((cfg1.win 5).blk t).view.set := by
  have hi0 : (i 0).val < 650000 := (i 0).isLt
  have hi1 : (i 1).val < 8 := (i 1).isLt
  refine ⟨blockOf (i 0).val hi0, flush1_5 _, ?_⟩
  rw [mem_blk5]
  have e := idx_facts1 (blockOf (i 0).val hi0)
  have ht : (blockOf (i 0).val hi0).val = (i 0).val / 520 := rfl
  intro a
  match a with
  | ⟨0, _⟩ => show win1_5.index (blockOf (i 0).val hi0) (0 : Fin 2) * 520 ≤ (i 0).val ∧ (i 0).val < win1_5.index (blockOf (i 0).val hi0) (0 : Fin 2) * 520 + 520; omega
  | ⟨1, _⟩ => show win1_5.index (blockOf (i 0).val hi0) (1 : Fin 2) * 8 ≤ (i 1).val ∧ (i 1).val < win1_5.index (blockOf (i 0).val hi0) (1 : Fin 2) * 8 + 8; omega

/-- The 1250 message blocks cover the message array. -/
theorem cover4 (i : S650000x8x16.Idx) : ∃ t : Fin cfg1.N, (cfg1.win 4).flush t = true ∧ i ∈ ((cfg1.win 4).blk t).view.set := by
  have hi0 : (i 0).val < 650000 := (i 0).isLt
  have hi1 : (i 1).val < 8 := (i 1).isLt
  have hi2 : (i 2).val < 16 := (i 2).isLt
  refine ⟨blockOf (i 0).val hi0, flush1_4 _, ?_⟩
  rw [mem_blk4]
  have e := idx_facts1 (blockOf (i 0).val hi0)
  have ht : (blockOf (i 0).val hi0).val = (i 0).val / 520 := rfl
  intro a
  match a with
  | ⟨0, _⟩ => show win1_4.index (blockOf (i 0).val hi0) (0 : Fin 3) * 520 ≤ (i 0).val ∧ (i 0).val < win1_4.index (blockOf (i 0).val hi0) (0 : Fin 3) * 520 + 520; omega
  | ⟨1, _⟩ => show win1_4.index (blockOf (i 0).val hi0) (1 : Fin 3) * 8 ≤ (i 1).val ∧ (i 1).val < win1_4.index (blockOf (i 0).val hi0) (1 : Fin 3) * 8 + 8; omega
  | ⟨2, _⟩ => show win1_4.index (blockOf (i 0).val hi0) (2 : Fin 3) * 16 ≤ (i 2).val ∧ (i 2).val < win1_4.index (blockOf (i 0).val hi0) (2 : Fin 3) * 16 + 16; omega

/-- THE SCORE ARRAY after the region: the scores of the three input arrays as the region found them. -/
theorem final5 (c : Dev nD) :
    (dat1 V c).arrAt 5 cfg1.N = EdgeSpec.scoreArr (V c main_v14) (V c main_v22) (V c main_v46) :=
  (dat1 V c).arrAt_eq_of_cover 5 _ (fun t _ => flushed5_eq V c t) cover5

/-- THE MESSAGE ARRAY after the region: the messages of the four input arrays as the region found them. -/
theorem final4 (c : Dev nD) :
    (dat1 V c).arrAt 4 cfg1.N = EdgeSpec.msgArr (V c main_v14) (V c main_v22) (V c main_v30) (V c main_v46) :=
  (dat1 V c).arrAt_eq_of_cover 4 _ (fun t _ => flushed4_eq V c t) cover4

end Cert.KernelIdeal.EdgeVal

end
-- ==== Proof.RefValue.lean ====
/-
  The reference's scores, messages and result, read as the per-edge arithmetic.

  The reference gathers the per-edge key, query and value slabs `[650000, 8, 16]` and the edge-type rows, forms in each
  lane `((K·Q)·¼)·E`, sums the 16 lanes of a head from zero, clips to [−5, 5] and exponentiates: at (e, h) that is
  `EdgeSpec.score` of the gathered arrays; its message at (e, h, d) is the value slab's entry times that score broadcast
  along the lanes.  Its result is the per-destination sum of the messages divided by the per-destination sum of the
  scores plus a small constant: one function (`tail`) of the message array, the score array and the destination indices.
-/
import proofs.«170937_j69363721830857_2_alg».proof.Proof.Gen.ReferenceIdeal.Read
import proofs.«170937_j69363721830857_2_alg».proof.Proof.EdgeSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Facts₀ Cert.ReferenceIdeal.Facts Cert.ReferenceIdeal.Read
open Idealize.ShloMosaic Idealize.ShloMosaic.ValueIdx

variable (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S16x128, .f32⟩ : BufTy).Contents (Elt Ideal)) (x8 : (⟨S1x128, .f32⟩ : BufTy).Contents (Elt Ideal)) (x9 : (⟨S600000, .i32⟩ : BufTy).Contents (Elt Ideal)) (x10 : (⟨S50000, .i32⟩ : BufTy).Contents (Elt Ideal)) (x11 x12 : (⟨S650000, .i32⟩ : BufTy).Contents (Elt Ideal))

/-- THE REFERENCE'S SCORES are the per-edge scores of its gathered key, query and edge-type arrays. -/
theorem ref_score :
    val_main_v51 (F := Ideal) x0 x1 x2 x3 x4 x7 x8 x9 x10 x11 x12
      = EdgeSpec.scoreArr (val_main_v37 (F := Ideal) x0 x3 x4 x11) (val_main_v44 (F := Ideal) x0 x1 x2 x12)
          (val_main_v30 (F := Ideal) x7 x8 x9 x10) := by
  funext i
  obtain ⟨e, h, rfl⟩ : ∃ (e : Fin 650000) (h : Fin 8), i = ix2 e h := ⟨i 0, i 1, eq_ix2 i⟩
  have hidx : ∀ k : Fin 16, idx_main_v49 (ix2 e h) k = ix3 e h k := fun k => funext fun a => Fin.ext (by
    match a with
    | ⟨0, _⟩ => rfl
    | ⟨1, _⟩ => rfl
    | ⟨2, _⟩ => rfl)
  rw [val_main_v51_apply, val_main_v50_apply, val_main_call0_v4_apply, val_main_call0_v3_apply, val_main_cst_9_apply,
    val_main_call0_v2_apply, val_main_call0_v1_apply, val_main_call0_v0_apply, val_main_cst_8_apply, val_main_v49_apply,
    val_main_cst_7_apply]
  simp only [val_main_v48_apply, val_main_v47_apply, val_main_v45_apply, val_main_v46_apply, val_main_cst_apply, hidx]
  unfold EdgeSpec.scoreArr EdgeSpec.score EdgeSpec.gate
  simp only [Ideal.hostUnary_exp_def, Ideal.minimumf_def, Ideal.maximumf_def, Ideal.mulf_def, Ideal.ofBits_def,
    Ideal.ofBits_zero_f32, zero_add]

/-- THE REFERENCE'S MESSAGES are the per-edge messages of its gathered arrays. -/
theorem ref_msg :
    val_main_v61 (F := Ideal) x0 x1 x2 x3 x4 x5 x6 x7 x8 x9 x10 x11 x12
      = EdgeSpec.msgArr (val_main_v37 (F := Ideal) x0 x3 x4 x11) (val_main_v44 (F := Ideal) x0 x1 x2 x12)
          (val_main_v58 (F := Ideal) x0 x5 x6 x11) (val_main_v30 (F := Ideal) x7 x8 x9 x10) := by
  funext i
  obtain ⟨e, h, d, rfl⟩ : ∃ (e : Fin 650000) (h : Fin 8) (d : Fin 16), i = ix3 e h d := ⟨i 0, i 1, i 2, eq_ix3 i⟩
  have hidx : idx_main_v59 (idx_main_v60 (ix3 e h d)) = ix2 e h := funext fun a => Fin.ext (by
    match a with
    | ⟨0, _⟩ => rfl
    | ⟨1, _⟩ => rfl)
  rw [val_main_v61_apply, val_main_v60_apply, val_main_v59_apply, hidx, ref_score]
  rfl

/-- The last stretch: messages and scores summed per destination node, the sums divided (the divisor offset by a small
    constant and broadcast along the lanes). -/
def tail (msg : (⟨S650000x8x16, .f32⟩ : BufTy).Contents (Elt Ideal)) (score : (⟨S650000x8, .f32⟩ : BufTy).Contents (Elt Ideal))
    (dst : (⟨S650000, .i32⟩ : BufTy).Contents (Elt Ideal)) : (⟨S50000x8x16, .f32⟩ : BufTy).Contents (Elt Ideal) :=
  Host.divf (F := Ideal) (φ := .f32)
    (Host.scatterAdd scatter_S50000x8x16_S650000x1_S650000x8x16_12_0_0_1 (val_main_v62 (F := Ideal)) (val_main_v63 (F := Ideal) dst) msg)
    (broadcastInDim S50000x8x16 ![0, 1, 2] bcast_S50000x8x1_S50000x8x16_0_1_2
      (addf (F := Ideal) (φ := .f32) (broadcastInDim S50000x8x1 ![0, 1] bcast_S50000x8_S50000x8x1_0_1
          (Host.scatterAdd scatter_S50000x8_S650000x1_S650000x8_1_0_0_1 (val_main_v65 (F := Ideal)) (val_main_v66 (F := Ideal) dst) score))
        (val_main_v69 (F := Ideal))))

/-- THE REFERENCE'S RESULT is the last stretch applied to its messages, its scores and the destination indices. -/
theorem ref_result :
    val_main_v72 (F := Ideal) x0 x1 x2 x3 x4 x5 x6 x7 x8 x9 x10 x11 x12
      = tail (val_main_v61 (F := Ideal) x0 x1 x2 x3 x4 x5 x6 x7 x8 x9 x10 x11 x12) (val_main_v51 (F := Ideal) x0 x1 x2 x3 x4 x7 x8 x9 x10 x11 x12) x12 := rfl

end Cert.ReferenceIdeal.RefValue

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.LibSlabGather.lean ====
/-
  A gather of whole slabs read at an entry.  For a three-axis array `x : [N, A, B]` and a column of start indices
  `idx : [E, 1]`, `x[idx]` (offset axes 1 and 2, collapsed axis 0, start index map [0], slices of one whole slab
  `[1, A, B]`) has at entry (e, a, b) the array's entry (r, a, b), where the slab r is the e-th start index read as a
  signed integer and clamped into [0, N - 1].  The two inner coordinates are untouched, so gathering slabs of a
  reshaped matrix is gathering the matrix's rows and reshaping afterwards.
-/
import Idealize.ShloMosaic.Lib.ValueIdx
import proofs.«170937_j69363721830857_2_alg».proof.Proof.LibRowGather
import proofs.«170937_j69363721830857_2_alg».proof.Proof.LibLayoutIdx

noncomputable section

namespace LibSlabGather

open Idealize.ShloMosaic Idealize.ShloMosaic.ValueIdx

/-- The dimension numbers of a gather of whole slabs: operand `[N, A, B]`, start indices `[E, 1]`, result `[E, A, B]`. -/
abbrev slabDims (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE SLAB GATHER AT `(e, a, b)`: the operand's entry in the clamped slab `idx[e, 0]` at the same inner coordinates. -/
theorem gather_slabs_apply {α : Type} {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (slabDims N A B E wf) x idx (ix3 e a b)
      = x (ix3 (LibRowGather.clampRow N hN (idx (ix2 e (0 : Fin 1)))) a b) := by
  unfold Host.gather
  refine congrArg x (funext fun c => Fin.ext ?_)
  match c with
  | ⟨0, _⟩ =>
    show (slabDims N A B E wf).start (ix3 e a b) idx 0 + (slabDims N A B E wf).batchCoord (ix3 e a b) 0
      + (slabDims N A B E wf).offCoord (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N A B E wf).startIndexMap from List.mem_singleton.mpr rfl)]
    have hsi : (slabDims N A B E wf).siIdx (ix3 e a b) ⟨List.idxOf (0 : Fin 3) (slabDims N A B E wf).startIndexMap,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
    rfl
  | ⟨1, _⟩ =>
    show (slabDims N A B E wf).start (ix3 e a b) idx 1 + (slabDims N A B E wf).batchCoord (ix3 e a b) 1
      + (slabDims N A B E wf).offCoord (ix3 e a b) 1 = a.val
    rw [GatherDims.batchCoord_eq_zero _ _ _ List.not_mem_nil]
    unfold GatherDims.start
    rw [dif_neg (show ¬ (1 : Fin 3) ∈ (slabDims N A B E wf).startIndexMap by
      show ¬ (1 : Fin 3) ∈ ([0] : List (Fin 3)); decide)]
    simp only [Nat.add_zero, Nat.zero_add]
    unfold GatherDims.offCoord
    rw [dif_pos ((GatherDims.mem_sKept _ _).mpr ⟨by show ¬ (1 : Fin 3) ∈ ([0] : List (Fin 3)); decide, List.not_mem_nil⟩)]
    rfl
  | ⟨2, _⟩ =>
    show (slabDims N A B E wf).start (ix3 e a b) idx 2 + (slabDims N A B E wf).batchCoord (ix3 e a b) 2
      + (slabDims N A B E wf).offCoord (ix3 e a b) 2 = b.val
    rw [GatherDims.batchCoord_eq_zero _ _ _ List.not_mem_nil]
    unfold GatherDims.start
    rw [dif_neg (show ¬ (2 : Fin 3) ∈ (slabDims N A B E wf).startIndexMap by
      show ¬ (2 : Fin 3) ∈ ([0] : List (Fin 3)); decide)]
    simp only [Nat.add_zero, Nat.zero_add]
    unfold GatherDims.offCoord
    rw [dif_pos ((GatherDims.mem_sKept _ _).mpr ⟨by show ¬ (2 : Fin 3) ∈ ([0] : List (Fin 3)); decide, List.not_mem_nil⟩)]
    rfl

/-- GATHER THEN SPLIT = SPLIT THEN GATHER.  Gathering rows of a matrix `[N, A·B]` and then splitting each gathered row
    into `[A, B]` is splitting every row of the matrix first and gathering the slabs: both have at (e, a, b) the matrix
    entry (r, a·B + b) in the same clamped row r. -/
theorem gather_rows_split {α : Type} {N A B D E w : Nat} (hN : 0 < N) (hD : D = A * B)
    (wf2 : GatherDims.WF ⟨2, ![N, D]⟩ ⟨2, ![E, 1]⟩ ⟨2, ![E, D]⟩ [1] [0] [] [0] [] 1 ![1, D])
    (wf3 : GatherDims.WF ⟨3, ![N, A, B]⟩ ⟨2, ![E, 1]⟩ ⟨3, ![E, A, B]⟩ [1, 2] [0] [] [0] [] 1 ![1, A, B])
    (hcE : (⟨2, ![E, D]⟩ : Shape).ShapeCasts ⟨3, ![E, A, B]⟩) (hcN : (⟨2, ![N, D]⟩ : Shape).ShapeCasts ⟨3, ![N, A, B]⟩)
    (x : (⟨2, ![N, D]⟩ : Shape).Idx → α) (idx : IVec ⟨2, ![E, 1]⟩ w) :
    shapeCast ⟨3, ![E, A, B]⟩ (Host.gather (LibRowGather.rowDims N D E wf2) x idx) hcE
      = Host.gather (slabDims N A B E wf3) (shapeCast ⟨3, ![N, A, B]⟩ x hcN) idx := by
  funext i
  obtain ⟨e, a, b, rfl⟩ : ∃ (e : Fin E) (a : Fin A) (b : Fin B), i = ix3 e a b := ⟨i 0, i 1, i 2, eq_ix3 i⟩
  have hj : a.val * B + b.val < D := by
    rw [hD]
    exact Nat.lt_of_lt_of_le (Nat.add_lt_add_left b.isLt _) (by rw [← Nat.succ_mul]; exact Nat.mul_le_mul_right _ a.isLt)
  rw [LibLayoutIdx.shapeCast_an_abc _ hcE hD e a b ⟨a.val * B + b.val, hj⟩ rfl, LibRowGather.gather_rows_apply hN wf2,
    gather_slabs_apply hN wf3, LibLayoutIdx.shapeCast_an_abc _ hcN hD _ a b ⟨a.val * B + b.val, hj⟩ rfl]

end LibSlabGather

end
-- ==== Proof.KernelValue.lean ====
/-
  The kernel's program computes the reference's result.

  Reading the run boundary by boundary: the joined weights and biases enter the projection region, which leaves the
  joint projection `x · [Wq | Wk | Wv] + [bq | bk | bv]`; its three column bands are the reference's three projections;
  gathering a band's rows by the edges' nodes and splitting each row into heads is gathering the slabs of the split
  projection, which is what the reference gathers; so the edge region enters on the reference's own per-edge key,
  query, value and edge-type arrays, and leaves the per-edge messages and scores of those arrays — the reference's
  messages and scores; the last stretch is the reference's last stretch.  Hence the result buffer ends holding the
  reference's result term of the argument arrays.
-/
import proofs.«170937_j69363721830857_2_alg».proof.Proof.KVHostE
import proofs.«170937_j69363721830857_2_alg».proof.Proof.KVRegion0
import proofs.«170937_j69363721830857_2_alg».proof.Proof.KVRegion1
import proofs.«170937_j69363721830857_2_alg».proof.Proof.RefValue
import proofs.«170937_j69363721830857_2_alg».proof.Proof.LibSlabGather

noncomputable section

namespace Cert.KernelIdeal.HostVal

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg) (c : Dev nD)

/-- After the projection region its result array holds the joint projection of the arguments. -/
theorem W2_v3 : W2 m ρ c (Proc.devRef .tc main_v3)
    = ProjVal.projArr (m ((c : Thread nD τ).loc main_arg0)) (Wcat (m ((c : Thread nD τ).loc main_arg1)) (m ((c : Thread nD τ).loc main_arg3)) (m ((c : Thread nD τ).loc main_arg5))) (Bcat (m ((c : Thread nD τ).loc main_arg2)) (m ((c : Thread nD τ).loc main_arg4)) (m ((c : Thread nD τ).loc main_arg6))) := by
  refine (W2_arr m ρ c 3).trans ((ProjVal.final3 (Vt1 m ρ) c).trans ?_)
  show ProjVal.projArr (W1 m ρ c (Proc.devRef .tc main_arg0)) (W1 m ρ c (Proc.devRef .tc main_v0)) (W1 m ρ c (Proc.devRef .tc main_v2)) = _
  rw [W1_arg m ρ c main_arg0 (by decide), W1_v0, W1_v2]

/-- An argument the projection region does not touch is still as launched after it. -/
theorem W2_arg (r : Ref sig .tc) (h0 : r ∉ hostOps0_W) (hne : ∀ w, Pipeline.arrRef spec0 w ≠ r) :
    W2 m ρ c (Proc.devRef .tc r) = m ((c : Thread nD τ).loc r) :=
  (W2_of_ne m ρ c r hne).trans (W1_arg m ρ c r h0)

/-- The gathered key slabs the edge region enters on are the reference's. -/
theorem W3_K : W3 m ρ c (Proc.devRef .tc main_v14)
    = Cert.ReferenceIdeal.Read.val_main_v37 (F := Ideal) (m ((c : Thread nD τ).loc main_arg0)) (m ((c : Thread nD τ).loc main_arg3)) (m ((c : Thread nD τ).loc main_arg4)) (m ((c : Thread nD τ).loc main_arg11)) := by
  rw [W3_v14, W2_v3, W2_arg m ρ c main_arg11 (by decide) (by decide), slice_proj_1]
  exact LibSlabGather.gather_rows_split (N := 50000) (A := 8) (B := 16) (D := 128) (E := 650000) (by decide) rfl _ _ _ _ _ _

/-- The gathered query slabs the edge region enters on are the reference's. -/
theorem W3_Q : W3 m ρ c (Proc.devRef .tc main_v22)
    = Cert.ReferenceIdeal.Read.val_main_v44 (F := Ideal) (m ((c : Thread nD τ).loc main_arg0)) (m ((c : Thread nD τ).loc main_arg1)) (m ((c : Thread nD τ).loc main_arg2)) (m ((c : Thread nD τ).loc main_arg12)) := by
  rw [W3_v22, W2_v3, W2_arg m ρ c main_arg12 (by decide) (by decide), slice_proj_0]
  exact LibSlabGather.gather_rows_split (N := 50000) (A := 8) (B := 16) (D := 128) (E := 650000) (by decide) rfl _ _ _ _ _ _

/-- The gathered value slabs the edge region enters on are the reference's. -/
theorem W3_V : W3 m ρ c (Proc.devRef .tc main_v30)
    = Cert.ReferenceIdeal.Read.val_main_v58 (F := Ideal) (m ((c : Thread nD τ).loc main_arg0)) (m ((c : Thread nD τ).loc main_arg5)) (m ((c : Thread nD τ).loc main_arg6)) (m ((c : Thread nD τ).loc main_arg11)) := by
  rw [W3_v30, W2_v3, W2_arg m ρ c main_arg11 (by decide) (by decide), slice_proj_2]
  exact LibSlabGather.gather_rows_split (N := 50000) (A := 8) (B := 16) (D := 128) (E := 650000) (by decide) rfl _ _ _ _ _ _

/-- The edge-type rows the edge region enters on are the reference's. -/
theorem W3_E : W3 m ρ c (Proc.devRef .tc main_v46)
    = Cert.ReferenceIdeal.Read.val_main_v30 (F := Ideal) (m ((c : Thread nD τ).loc main_arg7)) (m ((c : Thread nD τ).loc main_arg8)) (m ((c : Thread nD τ).loc main_arg9)) (m ((c : Thread nD τ).loc main_arg10)) := by
  rw [W3_v46, W2_arg m ρ c main_arg7 (by decide) (by decide), W2_arg m ρ c main_arg8 (by decide) (by decide),
    W2_arg m ρ c main_arg9 (by decide) (by decide), W2_arg m ρ c main_arg10 (by decide) (by decide)]

/-- After the edge region the score array holds the reference's scores. -/
theorem W4_score : W4 m ρ c (Proc.devRef .tc main_v47_1)
    = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 5).trans ((EdgeVal.final5 (Vt3 m ρ) c).trans ?_)
  show EdgeSpec.scoreArr (W3 m ρ c (Proc.devRef .tc main_v14)) (W3 m ρ c (Proc.devRef .tc main_v22)) (W3 m ρ c (Proc.devRef .tc main_v46)) = _
  rw [W3_K, W3_Q, W3_E, Cert.ReferenceIdeal.RefValue.ref_score]

/-- After the edge region the message array holds the reference's messages. -/
theorem W4_msg : W4 m ρ c (Proc.devRef .tc main_v47_0)
    = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 4).trans ((EdgeVal.final4 (Vt3 m ρ) c).trans ?_)
  show EdgeSpec.msgArr (W3 m ρ c (Proc.devRef .tc main_v14)) (W3 m ρ c (Proc.devRef .tc main_v22)) (W3 m ρ c (Proc.devRef .tc main_v30)) (W3 m ρ c (Proc.devRef .tc main_v46)) = _
  rw [W3_K, W3_Q, W3_V, W3_E, Cert.ReferenceIdeal.RefValue.ref_msg]

/-- The destination indices are as launched when the last stretch reads them. -/
theorem W4_dst : W4 m ρ c (Proc.devRef .tc main_arg12) = (m ((c : Thread nD τ).loc main_arg12)) :=
  (W4_of_ne m ρ c main_arg12 (by decide)).trans
    ((StableHlo.after_of_writes_sub hostOps1 _ hostOps1_writes (by decide)).trans (W2_arg m ρ c main_arg12 (by decide) (by decide)))

/-- The last stretch is the reference's. -/
theorem W5_v58 : W5 m ρ c (Proc.devRef .tc main_v58)
    = Cert.ReferenceIdeal.RefValue.tail (W4 m ρ c (Proc.devRef .tc main_v47_0)) (W4 m ρ c (Proc.devRef .tc main_v47_1))
        (W4 m ρ c (Proc.devRef .tc main_arg12)) := by
  show StableHlo.after hostOps2 (W4 m ρ c) (Proc.devRef .tc main_v58) = _
  after_results
  rfl

/-- THE KERNEL'S RESULT: the result buffer ends holding the reference's result term of the argument arrays. -/
theorem kernel_value : W5 m ρ c (Proc.devRef .tc main_v58)
    = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W5_v58, W4_msg, W4_score, W4_dst, Cert.ReferenceIdeal.RefValue.ref_result]

end Cert.KernelIdeal.HostVal

end
-- ==== Proof.lean ====
/-
  A multi-head attention layer over a graph's edges, as two pipelined kernels among host operations, against its plain
  reference — equal on the extended reals.

  The kernel's program projects the node features once by the three weight matrices laid side by side (a matrix product
  over row blocks, plus the joined bias), cuts the result into the query, key and value bands, gathers each band's rows
  by the edges' source or destination node, and hands the gathered per-edge slabs with the gathered edge-type rows to
  the second kernel, which forms per edge and head the score `exp(clip(Σ_d K·Q·E·¼, −5, 5))` and the message
  `V · score`; the host then sums messages and scores per destination node and divides.  The reference computes the
  three projections separately, reshapes before gathering, and scales by ¼ before multiplying by the edge-type row.

  Both are the same function of the arguments: a band of the joint projection is the separate projection (a joined
  matrix read at a column is the piece that holds the column); gathering rows and splitting them is splitting and
  gathering slabs; the lane products differ only in the order of their factors; the index arithmetic and the final
  per-node sums are the same operations on equal operands.  No step uses distributivity or cancellation, so the
  finiteness of the inputs is never needed.  The two kernels' frames are the several-region run: every block fetched,
  the body run, the output block written back, with the host stretches between.
-/
import proofs.«170937_j69363721830857_2_alg».proof.Defs
import proofs.«170937_j69363721830857_2_alg».proof.Proof.Gen.Kernel
import proofs.«170937_j69363721830857_2_alg».proof.Proof.Gen.KernelIdeal
import proofs.«170937_j69363721830857_2_alg».proof.Proof.Gen.ReferenceIdeal
import proofs.«170937_j69363721830857_2_alg».proof.Proof.Gen.Pre_finite_inputs
import proofs.«170937_j69363721830857_2_alg».proof.Proof.Gen.ReferenceIdeal.Run
import proofs.«170937_j69363721830857_2_alg».proof.Proof.Gen.ReferenceIdeal.Read
import proofs.«170937_j69363721830857_2_alg».proof.Proof.KRun
import proofs.«170937_j69363721830857_2_alg».proof.Proof.KIRun
import proofs.«170937_j69363721830857_2_alg».proof.Proof.KernelValue

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's result term of the (agreeing) arguments in their result buffers. -/
theorem algebraic : Cert.algebraic_KernelIdeal_ReferenceIdeal := by
  intro m ρ m' ρ' _ hagree
  refine ⟨fun c => Cert.ReferenceIdeal.Read.val_main_v72 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono (fun r h c =>
      ⟨(h c _ (Cert.KernelIdeal.Gen.mem_uc Cert.KernelIdeal.main_v58 (by decide))).trans (Cert.KernelIdeal.HostVal.kernel_value m ρ c),
      (h c _ (Cert.KernelIdeal.Gen.mem_uc Cert.KernelIdeal.main_arg0 (by decide))).trans (Cert.KernelIdeal.Gen.W5_main_arg0 m ρ c),
      (h c _ (Cert.KernelIdeal.Gen.mem_uc Cert.KernelIdeal.main_arg1 (by decide))).trans (Cert.KernelIdeal.Gen.W5_main_arg1 m ρ c),
      (h c _ (Cert.KernelIdeal.Gen.mem_uc Cert.KernelIdeal.main_arg2 (by decide))).trans (Cert.KernelIdeal.Gen.W5_main_arg2 m ρ c),
      (h c _ (Cert.KernelIdeal.Gen.mem_uc Cert.KernelIdeal.main_arg3 (by decide))).trans (Cert.KernelIdeal.Gen.W5_main_arg3 m ρ c),
      (h c _ (Cert.KernelIdeal.Gen.mem_uc Cert.KernelIdeal.main_arg4 (by decide))).trans (Cert.KernelIdeal.Gen.W5_main_arg4 m ρ c),
      (h c _ (Cert.KernelIdeal.Gen.mem_uc Cert.KernelIdeal.main_arg5 (by decide))).trans (Cert.KernelIdeal.Gen.W5_main_arg5 m ρ c),
      (h c _ (Cert.KernelIdeal.Gen.mem_uc Cert.KernelIdeal.main_arg6 (by decide))).trans (Cert.KernelIdeal.Gen.W5_main_arg6 m ρ c),
      (h c _ (Cert.KernelIdeal.Gen.mem_uc Cert.KernelIdeal.main_arg7 (by decide))).trans (Cert.KernelIdeal.Gen.W5_main_arg7 m ρ c),
      (h c _ (Cert.KernelIdeal.Gen.mem_uc Cert.KernelIdeal.main_arg8 (by decide))).trans (Cert.KernelIdeal.Gen.W5_main_arg8 m ρ c),
      (h c _ (Cert.KernelIdeal.Gen.mem_uc Cert.KernelIdeal.main_arg9 (by decide))).trans (Cert.KernelIdeal.Gen.W5_main_arg9 m ρ c),
      (h c _ (Cert.KernelIdeal.Gen.mem_uc Cert.KernelIdeal.main_arg10 (by decide))).trans (Cert.KernelIdeal.Gen.W5_main_arg10 m ρ c),
      (h c _ (Cert.KernelIdeal.Gen.mem_uc Cert.KernelIdeal.main_arg11 (by decide))).trans (Cert.KernelIdeal.Gen.W5_main_arg11 m ρ c),
      (h c _ (Cert.KernelIdeal.Gen.mem_uc Cert.KernelIdeal.main_arg12 (by decide))).trans (Cert.KernelIdeal.Gen.W5_main_arg12 m ρ c),
      (h c _ (Cert.KernelIdeal.Gen.mem_uc Cert.KernelIdeal.main_arg13 (by decide))).trans (Cert.KernelIdeal.Gen.W5_main_arg13 m ρ c)⟩) (Cert.KernelIdeal.Gen.run_all m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v72_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
